-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x600000 : Shape := ⟨2, ![2, 600000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : IVec S2x600000 32) (main_arg6 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S5000x128 : Shape := ⟨2, ![5000, 128]⟩
abbrev S5000x1 : Shape := ⟨2, ![5000, 1]⟩
abbrev S600000x128 : Shape := ⟨2, ![600000, 128]⟩
abbrev S1x128 : Shape := ⟨2, ![1, 128]⟩
abbrev S1000x128 : Shape := ⟨2, ![1000, 128]⟩
abbrev S1000 : Shape := ⟨1, ![1000]⟩
abbrev S1000x1 : Shape := ⟨2, ![1000, 1]⟩

abbrev nBuf : Space → Nat
  | .hbm => 71
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x600000, .i32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S50000x128, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S_, .f32⟩
  | .hbm, ⟨33, _⟩ => ⟨S50000x128, .f32⟩
  | .hbm, ⟨34, _⟩ => ⟨S600000x1, .i32⟩
  | .hbm, ⟨35, _⟩ => ⟨S50000x128, .f32⟩
  | .hbm, ⟨36, _⟩ => ⟨S50000x1, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S_, .f32⟩
  | .hbm, ⟨49, _⟩ => ⟨S50000x128, .f32⟩
  | .hbm, ⟨50, _⟩ => ⟨S600000x1, .i32⟩
  | .hbm, ⟨51, _⟩ => ⟨S50000x128, .f32⟩
  | .hbm, ⟨52, _⟩ => ⟨S50000x1, .f32⟩
  | .hbm, ⟨53, _⟩ => ⟨S1x128, .f32⟩
  | .hbm, ⟨54, _⟩ => ⟨S50000x128, .f32⟩
  | .hbm, ⟨55, _⟩ => ⟨S_, .f32⟩
  | .hbm, ⟨56, _⟩ => ⟨S1000x128, .f32⟩
  | .hbm, ⟨57, _⟩ => ⟨S50000x1, .i32⟩
  | .hbm, ⟨58, _⟩ => ⟨S1000x128, .f32⟩
  | .hbm, ⟨59, _⟩ => ⟨S_, .f32⟩
  | .hbm, ⟨60, _⟩ => ⟨S50000, .f32⟩
  | .hbm, ⟨61, _⟩ => ⟨S_, .f32⟩
  | .hbm, ⟨62, _⟩ => ⟨S1000, .f32⟩
  | .hbm, ⟨63, _⟩ => ⟨S50000x1, .i32⟩
  | .hbm, ⟨64, _⟩ => ⟨S1000, .f32⟩
  | .hbm, ⟨65, _⟩ => ⟨S_, .f32⟩
  | .hbm, ⟨66, _⟩ => ⟨S1000, .f32⟩
  | .hbm, ⟨67, _⟩ => ⟨S1000, .f32⟩
  | .hbm, ⟨68, _⟩ => ⟨S1000x1, .f32⟩
  | .hbm, ⟨69, _⟩ => ⟨S1000x128, .f32⟩
  | .hbm, ⟨70, _⟩ => ⟨S1000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1000x128 : S_.BroadcastsInDim S1000x128 (![] : Fin 0 → Fin S1000x128.rank)
  bcast_S50000_S50000x1_0 : S50000.BroadcastsInDim S50000x1 (![0] : Fin 1 → Fin S50000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S1000x128_S50000x1_S50000x128_1_0_0_1_wf : ScatterDims.WF S1000x128 S50000x1 S50000x128 [1] [0] [0] 1
  scatter_S1000_S50000x1_S50000_n_0_0_1_wf : ScatterDims.WF S1000 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S1000x128_S50000x1_S50000x128_1_0_0_1 : ScatterDims S1000x128 S50000x1 S50000x128 where
  updateWindowDims := [1]
  insertedWindowDims := [0]
  scatterDimsToOperandDims := [0]
  indexVectorDim := 1
  wf := scatter_S1000x128_S50000x1_S50000x128_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S1000x128 : Shape := ⟨2, ![1000, 128]⟩
abbrev S1000 : Shape := ⟨1, ![1000]⟩
abbrev S1000x1 : Shape := ⟨2, ![1000, 1]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S2x600000, .i32⟩
  | 6 => ⟨S50000, .i32⟩
  | 7 => ⟨S1x600000, .i32⟩
  | 8 => ⟨S600000, .i32⟩
  | 9 => ⟨S1x600000, .i32⟩
  | 10 => ⟨S600000, .i32⟩
  | 11 => ⟨S50000x128, .f32⟩
  | 12 => ⟨S_, .f32⟩
  | 13 => ⟨S600000, .f32⟩
  | 14 => ⟨S_, .f32⟩
  | 15 => ⟨S50000, .f32⟩
  | 16 => ⟨S600000x1, .i32⟩
  | 17 => ⟨S50000, .f32⟩
  | 18 => ⟨S_, .f32⟩
  | 19 => ⟨S50000, .f32⟩
  | 20 => ⟨S50000, .f32⟩
  | 21 => ⟨S50000, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000, .f32⟩
  | 40 => ⟨S600000, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x128, .f32⟩
  | 50 => ⟨S600000x1, .f32⟩
  | 51 => ⟨S600000x128, .f32⟩
  | 52 => ⟨S600000x128, .f32⟩
  | 53 => ⟨S_, .f32⟩
  | 54 => ⟨S50000x128, .f32⟩
  | 55 => ⟨S600000x1, .i32⟩
  | 56 => ⟨S50000x128, .f32⟩
  | 57 => ⟨S50000, .f32⟩
  | 58 => ⟨S50000x1, .f32⟩
  | 59 => ⟨S50000x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .i1⟩
  | 68 => ⟨S_, .f32⟩
  | 69 => ⟨S50000x128, .f32⟩
  | 70 => ⟨S50000x128, .f32⟩
  | 71 => ⟨S50000x128, .f32⟩
  | 72 => ⟨S50000x128, .f32⟩
  | 73 => ⟨S_, .f32⟩
  | 74 => ⟨S600000, .f32⟩
  | 75 => ⟨S_, .f32⟩
  | 76 => ⟨S50000, .f32⟩
  | 77 => ⟨S600000x1, .i32⟩
  | 78 => ⟨S50000, .f32⟩
  | 79 => ⟨S_, .f32⟩
  | 80 => ⟨S50000, .f32⟩
  | 81 => ⟨S50000, .f32⟩
  | 82 => ⟨S50000, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000, .f32⟩
  | 101 => ⟨S600000, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x128, .f32⟩
  | 111 => ⟨S600000x1, .f32⟩
  | 112 => ⟨S600000x128, .f32⟩
  | 113 => ⟨S600000x128, .f32⟩
  | 114 => ⟨S_, .f32⟩
  | 115 => ⟨S50000x128, .f32⟩
  | 116 => ⟨S600000x1, .i32⟩
  | 117 => ⟨S50000x128, .f32⟩
  | 118 => ⟨S50000, .f32⟩
  | 119 => ⟨S50000x1, .f32⟩
  | 120 => ⟨S50000x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .i1⟩
  | 1 => ⟨S_, .f32⟩
  | 2 => ⟨S50000x128, .f32⟩
  | 3 => ⟨S50000x128, .f32⟩
  | 4 => ⟨S50000x128, .f32⟩
  | 5 => ⟨S_, .f32⟩
  | 6 => ⟨S1000x128, .f32⟩
  | 7 => ⟨S50000x1, .i32⟩
  | 8 => ⟨S1000x128, .f32⟩
  | 9 => ⟨S_, .f32⟩
  | 10 => ⟨S50000, .f32⟩
  | 11 => ⟨S_, .f32⟩
  | 12 => ⟨S1000, .f32⟩
  | 13 => ⟨S50000x1, .i32⟩
  | 14 => ⟨S1000, .f32⟩
  | 15 => ⟨S_, .f32⟩
  | 16 => ⟨S1000, .f32⟩
  | 17 => ⟨S1000, .f32⟩
  | 18 => ⟨S1000x1, .f32⟩
  | 19 => ⟨S1000x128, .f32⟩
  | 20 => ⟨S1000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_13 : Ref sig .tc := ⟨.hbm, 83, rfl⟩
abbrev main_v61 : Ref sig .tc := ⟨.hbm, 84, rfl⟩
abbrev main_v62 : Ref sig .tc := ⟨.hbm, 85, rfl⟩
abbrev main_c_14 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_15 : Ref sig .tc := ⟨.hbm, 92, rfl⟩
abbrev main_v68 : Ref sig .tc := ⟨.hbm, 93, rfl⟩
abbrev main_v69 : Ref sig .tc := ⟨.hbm, 94, rfl⟩
abbrev main_c_16 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_17 : Ref sig .tc := ⟨.hbm, 102, rfl⟩
abbrev main_v76 : Ref sig .tc := ⟨.hbm, 103, rfl⟩
abbrev main_v77 : Ref sig .tc := ⟨.hbm, 104, rfl⟩
abbrev main_c_18 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_19 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_20 : Ref sig .tc := ⟨.hbm, 126, rfl⟩
abbrev main_v97 : Ref sig .tc := ⟨.hbm, 127, rfl⟩
abbrev main_v98 : Ref sig .tc := ⟨.hbm, 128, rfl⟩
abbrev main_cst_21 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_22 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_23 : Ref sig .tc := ⟨.hbm, 137, rfl⟩
abbrev main_v105 : Ref sig .tc := ⟨.hbm, 138, rfl⟩
abbrev main_cst_24 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_25 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1000x128 : S_.BroadcastsInDim S1000x128 (![] : Fin 0 → Fin S1000x128.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S1000x128_S50000x1_S50000x128_1_0_0_1_wf : ScatterDims.WF S1000x128 S50000x1 S50000x128 [1] [0] [0] 1
  scatter_S1000_S50000x1_S50000_n_0_0_1_wf : ScatterDims.WF S1000 S50000x1 S50000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S1000x128_S50000x1_S50000x128_1_0_0_1 : ScatterDims S1000x128 S50000x1 S50000x128 where
  updateWindowDims := [1]
  insertedWindowDims := [0]
  scatterDimsToOperandDims := [0]
  indexVectorDim := 1
  wf := scatter_S1000x128_S50000x1_S50000x128_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf

class Facts : Prop extends Facts₀ where

variable [Facts]
-- ==== Proof.KernelRun.lean ====
/-
  The idealized kernel's run with its result named: every weakly fair execution terminates, the argument
  arrays end as launched, and the result buffer ends at the contents the last stretch of host operations
  leaves — the fold of the program's seven segments (four stretches of host operations around the three
  kernel launches) from the launch memory.
-/
import proofs.«164821_j27066883899917_2_alg».proof.Proof.Patched.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run_value : θ_run defs (onTc (τ := τ) (main (F := F))) ⟨m, fun _ => 0, ρ⟩ (fun r => ∀ c : Dev nD,
      r.2.mem ((c.tc : Thread nD τ).loc main_v50) = W7 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v50 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.RunValue

end
-- ==== Proof.RefLayer.lean ====
/-
  One graph-convolution layer as the reference computes it, as a function of the linear transform `h` of the node
  features, the bias vector and the edge index array; the reference's two layers are this function at
  `x · W1` and at `(layer 1) · W2`, and its result is the mean pooling `refTail` of the second layer.
  With `dinv = (deg + 1)^(-1/2)` per node: every edge `e` (source `s e`, target `t e`) sends
  `h[s e] · (dinv[s e] · dinv[t e])` to its target, node `n` adds its own `h[n] · (dinv[n] · dinv[n])` and the
  bias, and the leaky rectifier is applied.
-/
import proofs.«164821_j27066883899917_2_alg».proof.Proof.Gen.ReferenceIdeal.Read

noncomputable section

namespace Cert.ReferenceIdeal.Layer

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The layer, from `h`, the bias and the edge indices. -/
def refLayer (h : (⟨S50000x128, .f32⟩ : BufTy).Contents (Elt F)) (bv : (⟨S128, .f32⟩ : BufTy).Contents (Elt F))
    (x5 : (⟨S2x600000, .i32⟩ : BufTy).Contents (Elt F)) : (⟨S50000x128, .f32⟩ : BufTy).Contents (Elt F) :=
  let dinv : (⟨S50000, .f32⟩ : BufTy).Contents (Elt F) := val_main_v11 (F := F) x5
  let coef : (⟨S600000, .f32⟩ : BufTy).Contents (Elt F) :=
    mulf (Host.gather gather_S50000_S600000x1_S600000_n_0_n_n_0_1_1 dinv (val_main_v17 (F := F) x5))
      (Host.gather gather_S50000_S600000x1_S600000_n_0_n_n_0_1_1 dinv (val_main_v24 (F := F) x5))
  let msg : (⟨S600000x128, .f32⟩ : BufTy).Contents (Elt F) :=
    mulf (Host.gather gather_S50000x128_S600000x1_S600000x128_1_0_n_n_0_1_1128 h (val_main_v32 (F := F) x5))
      (broadcastInDim S600000x128 ![0, 1] bcast_S600000x1_S600000x128_0_1 (broadcastInDim S600000x1 ![0] bcast_S600000_S600000x1_0 coef))
  let agg : (⟨S50000x128, .f32⟩ : BufTy).Contents (Elt F) :=
    Host.scatterAdd scatter_S50000x128_S600000x1_S600000x128_1_0_0_1 (val_main_v37 (F := F)) (val_main_v38 (F := F) x5) msg
  let t : (⟨S50000x128, .f32⟩ : BufTy).Contents (Elt F) :=
    addf (addf agg (mulf h (broadcastInDim S50000x128 ![0, 1] bcast_S50000x1_S50000x128_0_1
        (broadcastInDim S50000x1 ![0] bcast_S50000_S50000x1_0 (mulf dinv dinv)))))
      (broadcastInDim S50000x128 ![0, 1] bcast_S1x128_S50000x128_0_1 (broadcastInDim S1x128 ![1] bcast_S128_S1x128_1 bv))
  select (cmpf .ogt t (val_main_v48 (F := F))) t (mulf (val_main_v50 (F := F)) t)

/-- The mean pooling over graphs that ends the program. -/
def refTail (a : (⟨S50000x128, .f32⟩ : BufTy).Contents (Elt F)) (x6 : (⟨S50000, .i32⟩ : BufTy).Contents (Elt F)) :
    (⟨S1000x128, .f32⟩ : BufTy).Contents (Elt F) :=
  Host.divf (Host.scatterAdd scatter_S1000x128_S50000x1_S50000x128_1_0_0_1 (val_main_v102 (F := F)) (val_main_v103 (F := F) x6) a)
    (val_main_v112 (F := F) x6)

theorem layer1_eq (x0 x1 x2 x5) : val_main_v52 (F := F) x0 x1 x2 x5 = refLayer (val_main_v4 (F := F) x0 x1) x2 x5 := rfl

theorem layer2_eq (x0 x1 x2 x3 x4 x5) :
    val_main_v101 (F := F) x0 x1 x2 x3 x4 x5 = refLayer (val_main_v53 (F := F) x0 x1 x2 x3 x5) x4 x5 := rfl

theorem tail_eq (x0 x1 x2 x3 x4 x5 x6) :
    val_main_v113 (F := F) x0 x1 x2 x3 x4 x5 x6 = refTail (val_main_v101 (F := F) x0 x1 x2 x3 x4 x5) x6 := rfl

end Cert.ReferenceIdeal.Layer

end
-- ==== Proof.Indexing.lean ====
import Idealize.ShloMosaic.PureOps.Ideal
import Idealize.ShloMosaic.Lib.ValueIdx

/-!
  StableHLO gather and scatter-add with ONE scalar start index per edge, read at an index.

  An edge list of 600000 edges over 50000 nodes: the start indices are a column of 600000 32-bit words.
  A gather of a node array along axis 0 reads, at edge e, the node whose number is the e-th start index
  read signed and clamped into [0, 49999]. A scatter of an edge array along axis 0 lands edge e at the
  node whose number is the e-th start index read signed (not clamped; dropped when out of range).
-/

noncomputable section

open scoped BigOperators

namespace Cert.Gcn

open Idealize.ShloMosaic Idealize.ShloMosaic.ValueIdx

/-! ## The dimension numbers -/

/-- Gather of rows: operand [50000,128], start indices [600000,1], result [600000,128]. -/
abbrev rowGatherDims
    (wf : GatherDims.WF ⟨2, ![50000, 128]⟩ ⟨2, ![600000, 1]⟩ ⟨2, ![600000, 128]⟩ [1] [0] [] [0] [] 1 ![1, 128]) :
    GatherDims ⟨2, ![50000, 128]⟩ ⟨2, ![600000, 1]⟩ ⟨2, ![600000, 128]⟩ where
  offsetDims := [1]
  collapsedSliceDims := [0]
  operandBatchingDims := []
  startIndicesBatchingDims := []
  startIndexMap := [0]
  indexVectorDim := 1
  sliceSizes := ![1, 128]
  wf := wf

/-- Gather of scalars: operand [50000], start indices [600000,1], result [600000]. -/
abbrev vecGatherDims
    (wf : GatherDims.WF ⟨1, ![50000]⟩ ⟨2, ![600000, 1]⟩ ⟨1, ![600000]⟩ [] [0] [] [0] [] 1 ![1]) :
    GatherDims ⟨1, ![50000]⟩ ⟨2, ![600000, 1]⟩ ⟨1, ![600000]⟩ where
  offsetDims := []
  collapsedSliceDims := [0]
  operandBatchingDims := []
  startIndicesBatchingDims := []
  startIndexMap := [0]
  indexVectorDim := 1
  sliceSizes := ![1]
  wf := wf

/-- Scatter of rows: operand [50000,128], scatter indices [600000,1], updates [600000,128]. -/
abbrev rowScatterDims
    (wf : ScatterDims.WF ⟨2, ![50000, 128]⟩ ⟨2, ![600000, 1]⟩ ⟨2, ![600000, 128]⟩ [1] [0] [0] 1) :
    ScatterDims ⟨2, ![50000, 128]⟩ ⟨2, ![600000, 1]⟩ ⟨2, ![600000, 128]⟩ where
  updateWindowDims := [1]
  insertedWindowDims := [0]
  scatterDimsToOperandDims := [0]
  indexVectorDim := 1
  wf := wf

/-- Scatter of scalars: operand [50000], scatter indices [600000,1], updates [600000]. -/
abbrev vecScatterDims
    (wf : ScatterDims.WF ⟨1, ![50000]⟩ ⟨2, ![600000, 1]⟩ ⟨1, ![600000]⟩ [] [0] [0] 1) :
    ScatterDims ⟨1, ![50000]⟩ ⟨2, ![600000, 1]⟩ ⟨1, ![600000]⟩ where
  updateWindowDims := []
  insertedWindowDims := [0]
  scatterDimsToOperandDims := [0]
  indexVectorDim := 1
  wf := wf

/-! ## Gather read at an index -/

/-- The node edge `e` reads: its start index read signed, clamped into [0, 49999]. -/
def clampRow (idx : IVec ⟨2, ![600000, 1]⟩ 32) (e : Fin 600000) : Fin 50000 :=
  ⟨min (idx (ix2 e 0)).toInt.toNat 49999, by omega⟩

/-- The start-indices index the row gather reads for result index `j`: (j 0, 0). -/
theorem rowGather_siIdx
    (wf : GatherDims.WF ⟨2, ![50000, 128]⟩ ⟨2, ![600000, 1]⟩ ⟨2, ![600000, 128]⟩ [1] [0] [] [0] [] 1 ![1, 128])
    (j : (⟨2, ![600000, 128]⟩ : Shape).Idx) (c : Fin (rowGatherDims wf).startIndexMap.length) :
    (rowGatherDims wf).siIdx j c = ix2 (j 0) 0 := by
  funext b; refine Fin.ext ?_
  have hc : c.val = 0 := by have h : c.val < 1 := c.isLt; omega
  match b with
  | ⟨0, _⟩ => rfl
  | ⟨1, _⟩ => exact hc

theorem rowGather_start0
    (wf : GatherDims.WF ⟨2, ![50000, 128]⟩ ⟨2, ![600000, 1]⟩ ⟨2, ![600000, 128]⟩ [1] [0] [] [0] [] 1 ![1, 128])
    (idx : IVec ⟨2, ![600000, 1]⟩ 32) (j : (⟨2, ![600000, 128]⟩ : Shape).Idx) :
    (rowGatherDims wf).start j idx (0 : Fin 2) = (clampRow idx (j 0)).val := by
  unfold GatherDims.start
  rw [dif_pos (show (0 : Fin 2) ∈ (rowGatherDims wf).startIndexMap from List.mem_singleton.mpr rfl)]
  rw [rowGather_siIdx]
  rfl

theorem rowGather_start1
    (wf : GatherDims.WF ⟨2, ![50000, 128]⟩ ⟨2, ![600000, 1]⟩ ⟨2, ![600000, 128]⟩ [1] [0] [] [0] [] 1 ![1, 128])
    (idx : IVec ⟨2, ![600000, 1]⟩ 32) (j : (⟨2, ![600000, 128]⟩ : Shape).Idx) :
    (rowGatherDims wf).start j idx (1 : Fin 2) = 0 := by
  unfold GatherDims.start
  rw [dif_neg (show (1 : Fin 2) ∉ (rowGatherDims wf).startIndexMap from (by decide : (1 : Fin 2) ∉ ([0] : List (Fin 2))))]

theorem rowGather_off0
    (wf : GatherDims.WF ⟨2, ![50000, 128]⟩ ⟨2, ![600000, 1]⟩ ⟨2, ![600000, 128]⟩ [1] [0] [] [0] [] 1 ![1, 128])
    (j : (⟨2, ![600000, 128]⟩ : Shape).Idx) : (rowGatherDims wf).offCoord j (0 : Fin 2) = 0 :=
  GatherDims.offCoord_eq_zero _ _ _ (fun h => ((GatherDims.mem_sKept _ _).mp h).1 (List.mem_singleton.mpr rfl))

theorem rowGather_off1
    (wf : GatherDims.WF ⟨2, ![50000, 128]⟩ ⟨2, ![600000, 1]⟩ ⟨2, ![600000, 128]⟩ [1] [0] [] [0] [] 1 ![1, 128])
    (j : (⟨2, ![600000, 128]⟩ : Shape).Idx) : (rowGatherDims wf).offCoord j (1 : Fin 2) = (j 1).val := by
  unfold GatherDims.offCoord
  rw [dif_pos (show (1 : Fin 2) ∈ (rowGatherDims wf).sKept from
    (GatherDims.mem_sKept _ _).mpr ⟨(by decide : (1 : Fin 2) ∉ ([0] : List (Fin 2))), List.not_mem_nil⟩)]
  rfl

/-- The row gather at (e, c): the operand at (clamped start index of e, c). -/
theorem rowGather_apply {α : Type}
    (wf : GatherDims.WF ⟨2, ![50000, 128]⟩ ⟨2, ![600000, 1]⟩ ⟨2, ![600000, 128]⟩ [1] [0] [] [0] [] 1 ![1, 128])
    (x : (⟨2, ![50000, 128]⟩ : Shape).Idx → α) (idx : IVec ⟨2, ![600000, 1]⟩ 32)
    (j : (⟨2, ![600000, 128]⟩ : Shape).Idx) :
    Host.gather (rowGatherDims wf) x idx j = x (ix2 (clampRow idx (j 0)) (j 1)) := by
  unfold Host.gather
  congr 1
  funext a
  refine Fin.ext ?_
  show (rowGatherDims wf).start j idx a + (rowGatherDims wf).batchCoord j a + (rowGatherDims wf).offCoord j a = _
  rw [GatherDims.batchCoord_eq_zero _ _ _ List.not_mem_nil]
  match a with
  | ⟨0, _⟩ =>
    have h1 := rowGather_start0 wf idx j
    have h2 := rowGather_off0 wf j
    show (rowGatherDims wf).start j idx (0 : Fin 2) + 0 + (rowGatherDims wf).offCoord j (0 : Fin 2) = _
    rw [h1, h2]; rfl
  | ⟨1, _⟩ =>
    have h1 := rowGather_start1 wf idx j
    have h2 := rowGather_off1 wf j
    show (rowGatherDims wf).start j idx (1 : Fin 2) + 0 + (rowGatherDims wf).offCoord j (1 : Fin 2) = _
    rw [h1, h2]; simp

/-- The start-indices index the vector gather reads for result index `e`: (e 0, 0). -/
theorem vecGather_siIdx
    (wf : GatherDims.WF ⟨1, ![50000]⟩ ⟨2, ![600000, 1]⟩ ⟨1, ![600000]⟩ [] [0] [] [0] [] 1 ![1])
    (e : (⟨1, ![600000]⟩ : Shape).Idx) (c : Fin (vecGatherDims wf).startIndexMap.length) :
    (vecGatherDims wf).siIdx e c = ix2 (e 0) 0 := by
  funext b; refine Fin.ext ?_
  have hc : c.val = 0 := by have h : c.val < 1 := c.isLt; omega
  match b with
  | ⟨0, _⟩ => rfl
  | ⟨1, _⟩ => exact hc

/-- The vector gather at e: the operand at the clamped start index of e. -/
theorem vecGather_apply {α : Type}
    (wf : GatherDims.WF ⟨1, ![50000]⟩ ⟨2, ![600000, 1]⟩ ⟨1, ![600000]⟩ [] [0] [] [0] [] 1 ![1])
    (x : (⟨1, ![50000]⟩ : Shape).Idx → α) (idx : IVec ⟨2, ![600000, 1]⟩ 32)
    (e : (⟨1, ![600000]⟩ : Shape).Idx) :
    Host.gather (vecGatherDims wf) x idx e = x (ix1 (clampRow idx (e 0))) := by
  unfold Host.gather
  congr 1
  funext a
  obtain rfl : a = 0 := Subsingleton.elim _ _
  refine Fin.ext ?_
  show (vecGatherDims wf).start e idx 0 + (vecGatherDims wf).batchCoord e 0 + (vecGatherDims wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims wf).startIndexMap from List.mem_singleton.mpr rfl)]
  rw [vecGather_siIdx]
  rfl

/-! ## Scatter: where an update lands -/

/-- The scatter-indices index the row scatter reads for update index `j`: (j 0, 0). -/
theorem rowScatter_siIdx
    (wf : ScatterDims.WF ⟨2, ![50000, 128]⟩ ⟨2, ![600000, 1]⟩ ⟨2, ![600000, 128]⟩ [1] [0] [0] 1)
    (j : (⟨2, ![600000, 128]⟩ : Shape).Idx) (c : Fin (rowScatterDims wf).scatterDimsToOperandDims.length) :
    (rowScatterDims wf).siIdx j c = ix2 (j 0) 0 := by
  funext b; refine Fin.ext ?_
  have hc : c.val = 0 := by have h : c.val < 1 := c.isLt; omega
  match b with
  | ⟨0, _⟩ => rfl
  | ⟨1, _⟩ => exact hc

theorem rowScatter_start0
    (wf : ScatterDims.WF ⟨2, ![50000, 128]⟩ ⟨2, ![600000, 1]⟩ ⟨2, ![600000, 128]⟩ [1] [0] [0] 1)
    (idx : IVec ⟨2, ![600000, 1]⟩ 32) (j : (⟨2, ![600000, 128]⟩ : Shape).Idx) :
    (rowScatterDims wf).start j idx (0 : Fin 2) = (idx (ix2 (j 0) 0)).toInt := by
  unfold ScatterDims.start
  rw [dif_pos (show (0 : Fin 2) ∈ (rowScatterDims wf).scatterDimsToOperandDims from List.mem_singleton.mpr rfl)]
  rw [rowScatter_siIdx]
  rfl

theorem rowScatter_start1
    (wf : ScatterDims.WF ⟨2, ![50000, 128]⟩ ⟨2, ![600000, 1]⟩ ⟨2, ![600000, 128]⟩ [1] [0] [0] 1)
    (idx : IVec ⟨2, ![600000, 1]⟩ 32) (j : (⟨2, ![600000, 128]⟩ : Shape).Idx) :
    (rowScatterDims wf).start j idx (1 : Fin 2) = 0 := by
  unfold ScatterDims.start
  rw [dif_neg (show (1 : Fin 2) ∉ (rowScatterDims wf).scatterDimsToOperandDims from
    (by decide : (1 : Fin 2) ∉ ([0] : List (Fin 2))))]

theorem rowScatter_window0
    (wf : ScatterDims.WF ⟨2, ![50000, 128]⟩ ⟨2, ![600000, 1]⟩ ⟨2, ![600000, 128]⟩ [1] [0] [0] 1)
    (j : (⟨2, ![600000, 128]⟩ : Shape).Idx) : (rowScatterDims wf).window j (0 : Fin 2) = 0 := by
  unfold ScatterDims.window
  rw [dif_neg (show (0 : Fin 2) ∉ (rowScatterDims wf).sKept from
    (by decide : (0 : Fin 2) ∉ (⟨2, ![50000, 128]⟩ : Shape).kept ([0] : List (Fin 2))))]

theorem rowScatter_window1
    (wf : ScatterDims.WF ⟨2, ![50000, 128]⟩ ⟨2, ![600000, 1]⟩ ⟨2, ![600000, 128]⟩ [1] [0] [0] 1)
    (j : (⟨2, ![600000, 128]⟩ : Shape).Idx) : (rowScatterDims wf).window j (1 : Fin 2) = (j 1).val := by
  unfold ScatterDims.window
  rw [dif_pos (show (1 : Fin 2) ∈ (rowScatterDims wf).sKept from
    (by decide : (1 : Fin 2) ∈ (⟨2, ![50000, 128]⟩ : Shape).kept ([0] : List (Fin 2))))]
  rfl

/-- An update (e, c) of the row scatter lands at (n, c') exactly when the start index of e, read signed, is n
    and c = c'. -/
theorem rowScatter_hit_iff
    (wf : ScatterDims.WF ⟨2, ![50000, 128]⟩ ⟨2, ![600000, 1]⟩ ⟨2, ![600000, 128]⟩ [1] [0] [0] 1)
    (idx : IVec ⟨2, ![600000, 1]⟩ 32) (j : (⟨2, ![600000, 128]⟩ : Shape).Idx)
    (i : (⟨2, ![50000, 128]⟩ : Shape).Idx) :
    (rowScatterDims wf).resultIdx? j idx = some i ↔
      (idx (ix2 (j 0) 0)).toInt = ((i 0).val : ℤ) ∧ (j 1).val = (i 1).val := by
  have hs0 := rowScatter_start0 wf idx j
  have hs1 := rowScatter_start1 wf idx j
  have hw0 := rowScatter_window0 wf j
  have hw1 := rowScatter_window1 wf j
  have hi0 : (i 0).val < 50000 := (i 0).isLt
  have hi1 : (i 1).val < 128 := (i 1).isLt
  have hj1 : (j 1).val < 128 := (j 1).isLt
  unfold ScatterDims.resultIdx?
  constructor
  · intro h
    split at h
    · rename_i hall
      have h' := Option.some.inj h
      have e0 := congrArg (fun f => (f (0 : Fin 2)).val) h'
      have e1 := congrArg (fun f => (f (1 : Fin 2)).val) h'
      simp only [hs0, hs1, hw0, hw1] at e0 e1
      have b0 := hall (0 : Fin 2)
      simp only [hs0, hw0] at b0
      constructor
      · omega
      · omega
    · exact absurd h (by simp)
  · rintro ⟨h0, h1⟩
    have hall : ∀ a : Fin 2, 0 ≤ (rowScatterDims wf).start j idx a + ((rowScatterDims wf).window j a : ℤ) ∧
        (rowScatterDims wf).start j idx a + ((rowScatterDims wf).window j a : ℤ) < ((⟨2, ![50000, 128]⟩ : Shape).size a : ℤ) := by
      intro a
      match a with
      | ⟨0, _⟩ =>
        show 0 ≤ (rowScatterDims wf).start j idx (0 : Fin 2) + ((rowScatterDims wf).window j (0 : Fin 2) : ℤ) ∧
          (rowScatterDims wf).start j idx (0 : Fin 2) + ((rowScatterDims wf).window j (0 : Fin 2) : ℤ) < (50000 : ℤ)
        rw [hs0, hw0]; omega
      | ⟨1, _⟩ =>
        show 0 ≤ (rowScatterDims wf).start j idx (1 : Fin 2) + ((rowScatterDims wf).window j (1 : Fin 2) : ℤ) ∧
          (rowScatterDims wf).start j idx (1 : Fin 2) + ((rowScatterDims wf).window j (1 : Fin 2) : ℤ) < (128 : ℤ)
        rw [hs1, hw1]; omega
    rw [dif_pos hall]
    congr 1
    funext a
    refine Fin.ext ?_
    match a with
    | ⟨0, _⟩ =>
      show ((rowScatterDims wf).start j idx (0 : Fin 2) + ((rowScatterDims wf).window j (0 : Fin 2) : ℤ)).toNat = (i 0).val
      rw [hs0, hw0]; omega
    | ⟨1, _⟩ =>
      show ((rowScatterDims wf).start j idx (1 : Fin 2) + ((rowScatterDims wf).window j (1 : Fin 2) : ℤ)).toNat = (i 1).val
      rw [hs1, hw1]; omega

/-- An update of the row scatter that lands at node row `i 0` has that node as its start index. -/
theorem rowScatter_hit
    (wf : ScatterDims.WF ⟨2, ![50000, 128]⟩ ⟨2, ![600000, 1]⟩ ⟨2, ![600000, 128]⟩ [1] [0] [0] 1)
    (idx : IVec ⟨2, ![600000, 1]⟩ 32) (j : (⟨2, ![600000, 128]⟩ : Shape).Idx)
    (i : (⟨2, ![50000, 128]⟩ : Shape).Idx) :
    (rowScatterDims wf).resultIdx? j idx = some i → (idx (ix2 (j 0) 0)).toInt = ((i 0).val : ℤ) :=
  fun h => ((rowScatter_hit_iff wf idx j i).mp h).1

/-- A start index that is a node number is its own clamp. -/
theorem clampRow_of_toInt (idx : IVec ⟨2, ![600000, 1]⟩ 32) (e : Fin 600000) (n : Fin 50000) :
    (idx (ix2 e 0)).toInt = (n.val : ℤ) → clampRow idx e = n := by
  intro h
  refine Fin.ext ?_
  show min (idx (ix2 e 0)).toInt.toNat 49999 = n.val
  rw [h]
  have := n.isLt
  omega

/-! ## The inverse square root of the degree -/

/-- The f32 word 0x00000000 denotes the real 0. -/
theorem ofBits_f32_zero : Ideal.ofBits .f32 0x00000000#32 = 0 := by
  simp [Ideal.ofBits, Ideal.ieee]

/-- The f32 word 0x3F800000 denotes the real 1. -/
theorem ofBits_f32_one : Ideal.ofBits .f32 0x3F800000#32 = 1 := by
  simp [Ideal.ofBits, Ideal.ieee, -EReal.coe_mul]; norm_num

/-- A finite sum of ones is the number of its terms. -/
theorem sum_one_eq_card {β : Type} (S : Finset β) : ∑ _j ∈ S, (1 : EReal) = ((S.card : ℝ) : EReal) := by
  classical
  induction S using Finset.induction_on with
  | empty => simp
  | insert a s ha ih =>
    rw [Finset.sum_insert ha, ih, Finset.card_insert_of_notMem ha, Nat.cast_succ, EReal.coe_add, EReal.coe_one, add_comm]

/-- Scatter-adding ones into zeros, adding one, then the inverse square root, at any dimension numbers:
    1/√(number of updates landing there + 1). -/
theorem rsqrt_scatter_ones {s si su : Shape} (d : ScatterDims s si su) {w : Nat} (idx : IVec si w)
    (z : FVec Ideal s .f32) (oE : FVec Ideal su .f32) (oN : FVec Ideal s .f32) (n : s.Idx)
    (hz : z n = 0) (hE : ∀ j, oE j = 1) (hN : oN n = 1) :
    Host.rsqrt (F := Ideal) (addf (Host.scatterAdd d z idx oE) oN) n
      = (((Real.sqrt (((Finset.univ.filter (fun j => d.resultIdx? j idx = some n)).card : ℝ) + 1))⁻¹ : ℝ) : EReal) := by
  show Ideal.rsqrt ((z n + ∑ j ∈ Finset.univ.filter (fun j => d.resultIdx? j idx = some n), oE j) + oN n) = _
  rw [hz, hN, zero_add, Finset.sum_congr rfl (fun j _ => hE j), sum_one_eq_card]
  rw [← EReal.coe_one, ← EReal.coe_add, Ideal.rsqrt_coe]
  have hpos : (0 : ℝ) < ((Finset.univ.filter (fun j => d.resultIdx? j idx = some n)).card : ℝ) + 1 := by positivity
  rw [if_neg (not_lt.mpr hpos.le), if_neg hpos.ne']

/-- The in-degree of node `n`: the number of edges whose start index, read signed, lands at `n`. -/
def inDeg (wf : ScatterDims.WF ⟨1, ![50000]⟩ ⟨2, ![600000, 1]⟩ ⟨1, ![600000]⟩ [] [0] [0] 1)
    (idx : IVec ⟨2, ![600000, 1]⟩ 32) (n : (⟨1, ![50000]⟩ : Shape).Idx) : ℕ :=
  (Finset.univ.filter (fun j : (⟨1, ![600000]⟩ : Shape).Idx => (vecScatterDims wf).resultIdx? j idx = some n)).card

/-- Scatter-adding ones into zeros, plus one, then the inverse square root: 1/√(in-degree + 1). -/
theorem dinv_eq
    (wf : ScatterDims.WF ⟨1, ![50000]⟩ ⟨2, ![600000, 1]⟩ ⟨1, ![600000]⟩ [] [0] [0] 1)
    (h0 : (⟨0, ![]⟩ : Shape).BroadcastsInDim ⟨1, ![50000]⟩ (![] : Fin 0 → Fin 1))
    (h1 : (⟨0, ![]⟩ : Shape).BroadcastsInDim ⟨1, ![600000]⟩ (![] : Fin 0 → Fin 1))
    (idx : IVec ⟨2, ![600000, 1]⟩ 32) (n : (⟨1, ![50000]⟩ : Shape).Idx) :
    Host.rsqrt (F := Ideal) (addf
        (Host.scatterAdd (vecScatterDims wf)
          (broadcastInDim ⟨1, ![50000]⟩ ![] h0 (constant (F := Ideal) ⟨0, ![]⟩ .f32 0x00000000#32)) idx
          (broadcastInDim ⟨1, ![600000]⟩ ![] h1 (constant (F := Ideal) ⟨0, ![]⟩ .f32 0x3F800000#32)))
        (broadcastInDim ⟨1, ![50000]⟩ ![] h0 (constant (F := Ideal) ⟨0, ![]⟩ .f32 0x3F800000#32))) n
      = (((Real.sqrt ((inDeg wf idx n : ℝ) + 1))⁻¹ : ℝ) : EReal) :=
  rsqrt_scatter_ones (vecScatterDims wf) idx _ _ _ n ofBits_f32_zero (fun _ => ofBits_f32_one) ofBits_f32_one

/-- The inverse square root of the degree is a nonnegative real. -/
theorem dinv_real
    (wf : ScatterDims.WF ⟨1, ![50000]⟩ ⟨2, ![600000, 1]⟩ ⟨1, ![600000]⟩ [] [0] [0] 1)
    (h0 : (⟨0, ![]⟩ : Shape).BroadcastsInDim ⟨1, ![50000]⟩ (![] : Fin 0 → Fin 1))
    (h1 : (⟨0, ![]⟩ : Shape).BroadcastsInDim ⟨1, ![600000]⟩ (![] : Fin 0 → Fin 1))
    (idx : IVec ⟨2, ![600000, 1]⟩ 32) (n : (⟨1, ![50000]⟩ : Shape).Idx) :
    ∃ r : ℝ, 0 ≤ r ∧
      Host.rsqrt (F := Ideal) (addf
        (Host.scatterAdd (vecScatterDims wf)
          (broadcastInDim ⟨1, ![50000]⟩ ![] h0 (constant (F := Ideal) ⟨0, ![]⟩ .f32 0x00000000#32)) idx
          (broadcastInDim ⟨1, ![600000]⟩ ![] h1 (constant (F := Ideal) ⟨0, ![]⟩ .f32 0x3F800000#32)))
        (broadcastInDim ⟨1, ![50000]⟩ ![] h0 (constant (F := Ideal) ⟨0, ![]⟩ .f32 0x3F800000#32))) n = (r : EReal) :=
  ⟨_, inv_nonneg.mpr (Real.sqrt_nonneg _), dinv_eq wf h0 h1 idx n⟩

/-! ## Index normalisation and the index column -/

/-- A start index that is nonnegative read signed is left alone by the wrap-around of negative indices. -/
theorem norm_of_nonneg
    (hb : (⟨0, ![]⟩ : Shape).BroadcastsInDim ⟨1, ![600000]⟩ (![] : Fin 0 → Fin 1))
    (v : IVec ⟨1, ![600000]⟩ 32) (e : (⟨1, ![600000]⟩ : Shape).Idx) :
    0 ≤ (v e).toInt →
    select (cmpi .slt v (broadcastInDim ⟨1, ![600000]⟩ ![] hb (constantI ⟨0, ![]⟩ 32 0#32)))
      (addi v (broadcastInDim ⟨1, ![600000]⟩ ![] hb (constantI ⟨0, ![]⟩ 32 50000#32))) v e = v e := by
  intro h
  show Scalar.select (IntOp.cmpi .slt (v e) 0#32) _ (v e) = v e
  have hc : IntOp.cmpi .slt (v e) 0#32 = 0#1 := by
    have hs : (v e).slt 0#32 = false := by
      simp only [BitVec.slt, BitVec.toInt_zero, decide_eq_false_iff_not, not_lt]
      exact h
    show BitVec.ofBool ((v e).slt 0#32) = 0#1
    rw [hs]; rfl
  rw [hc]
  exact select_zero _ _

/-- The column of an edge vector reads the vector. -/
theorem col_apply {α : Type}
    (hc : (⟨1, ![600000]⟩ : Shape).BroadcastsInDim ⟨2, ![600000, 1]⟩ (![0] : Fin 1 → Fin 2))
    (v : (⟨1, ![600000]⟩ : Shape).Idx → α) (e : Fin 600000) :
    broadcastInDim ⟨2, ![600000, 1]⟩ ![0] hc v (ix2 e 0) = v (ix1 e) := by
  unfold broadcastInDim
  congr 1
  funext a
  obtain rfl : a = 0 := Subsingleton.elim _ _
  rw [dif_neg (show ¬ ((⟨1, ![600000]⟩ : Shape).size (0 : Fin 1) = 1) by decide)]
  rfl

end Cert.Gcn

end
-- ==== Proof.Spec.lean ====
/-
  The mathematics of one graph-convolution layer as both programs compute it, over whole arrays of extended
  reals.  A node feature array has 50000 rows (nodes) of 128 columns; `d` is the column array of inverse square
  roots of the degrees, `b` a bias row.  `mm x w` is the matrix product, `scaleRows h d` multiplies row `n` by
  `d n`, `pre` is the affine map before the rectifier, `lrelu` the leaky rectifier (slope the f32 word
  0x3C23D70A), `act` their composition.  The three kernel bodies compute `R0`, `R1`, `R2` of their operands.
-/
import Idealize.ShloMosaic.PureOps.Ideal
import Idealize.ShloMosaic.Lib.ValueIdx

noncomputable section

open scoped BigOperators

namespace Cert.Gcn

open Idealize.ShloMosaic Idealize.ShloMosaic.ValueIdx

abbrev SN : Shape := ⟨2, ![50000, 128]⟩
abbrev SW : Shape := ⟨2, ![128, 128]⟩
abbrev SD : Shape := ⟨2, ![50000, 1]⟩
abbrev SB : Shape := ⟨2, ![1, 128]⟩

/-- The leaky rectifier on one extended real: `v` when `v > 0`, else `slope * v`. -/
def lrelu (v : EReal) : EReal :=
  Scalar.select (FloatOps.cmpf (F := Ideal) (φ := .f32) .ogt v (FloatOps.ofBits (F := Ideal) .f32 0x00000000#32)) v
    (FloatOps.mulf (F := Ideal) (φ := .f32) (FloatOps.ofBits (F := Ideal) .f32 0x3C23D70A#32) v)

/-- The matrix product of a node array with a square weight array. -/
def mm (x : FVec Ideal SN .f32) (w : FVec Ideal SW .f32) : FVec Ideal SN .f32 :=
  fun i => ∑ k : Fin 128, x (ix2 (i 0) k) * w (ix2 k (i 1))

/-- Row `n` multiplied by `d n`. -/
def scaleRows (h : FVec Ideal SN .f32) (d : FVec Ideal SD .f32) : FVec Ideal SN .f32 :=
  fun i => h i * d (ix2 (i 0) 0)

/-- The affine map before the rectifier: `d n * (agg + hs) + b`. -/
def pre (agg hs : FVec Ideal SN .f32) (d : FVec Ideal SD .f32) (b : FVec Ideal SB .f32) : FVec Ideal SN .f32 :=
  fun j => d (ix2 (j 0) 0) * (agg j + hs j) + b (ix2 0 (j 1))

/-- The rectified layer output. -/
def act (agg hs : FVec Ideal SN .f32) (d : FVec Ideal SD .f32) (b : FVec Ideal SB .f32) : FVec Ideal SN .f32 :=
  fun j => lrelu (pre agg hs d b j)

/-- First kernel: the product, rows scaled. -/
def R0 (x : FVec Ideal SN .f32) (w : FVec Ideal SW .f32) (d : FVec Ideal SD .f32) : FVec Ideal SN .f32 :=
  scaleRows (mm x w) d

/-- Second kernel: the rectified layer output times the next weights, rows scaled. -/
def R1 (agg hs : FVec Ideal SN .f32) (d : FVec Ideal SD .f32) (b : FVec Ideal SB .f32) (w : FVec Ideal SW .f32) :
    FVec Ideal SN .f32 :=
  scaleRows (mm (act agg hs d b) w) d

/-- Third kernel: the rectified layer output. -/
def R2 (agg hs : FVec Ideal SN .f32) (d : FVec Ideal SD .f32) (b : FVec Ideal SB .f32) : FVec Ideal SN .f32 :=
  act agg hs d b

end Cert.Gcn

end
-- ==== Proof.Algebra.lean ====
/-
  Two laws of the extended reals that the layer identity rests on.  Multiplication by a NONNEGATIVE REAL
  distributes over every finite sum of extended reals (infinite terms of both signs included), so such a
  factor can be moved from outside a sum of messages onto each message.
-/
import Mathlib.Data.EReal.Operations
import Mathlib.Algebra.BigOperators.Group.Finset.Basic

open scoped BigOperators

namespace Cert.Gcn

/-- A nonnegative real factor distributes over a finite sum of extended reals. -/
theorem mul_finset_sum {ι : Type*} (c : EReal) (hc0 : 0 ≤ c) (hct : c ≠ ⊤) (S : Finset ι) (f : ι → EReal) :
    c * ∑ j ∈ S, f j = ∑ j ∈ S, c * f j := by
  classical
  induction S using Finset.induction_on with
  | empty => simp
  | insert a s ha ih =>
    rw [Finset.sum_insert ha, Finset.sum_insert ha, EReal.left_distrib_of_nonneg_of_ne_top hc0 hct, ih]

/-- The layer identity at one entry: a nonnegative real `c` outside `(z + ∑ f) + a` against the same sum with
    `c` already inside every term (`g j = c * f j`) and inside the self term (`a' = c * a`), `z` the zero. -/
theorem layer_core {ι : Type*} (c : EReal) (hc0 : 0 ≤ c) (hct : c ≠ ⊤) (S : Finset ι) (f g : ι → EReal)
    (hfg : ∀ j ∈ S, c * f j = g j) (a a' b z : EReal) (hz : z = 0) (ha : c * a = a') :
    c * ((z + ∑ j ∈ S, f j) + a) + b = ((z + ∑ j ∈ S, g j) + a') + b := by
  subst hz
  rw [EReal.left_distrib_of_nonneg_of_ne_top hc0 hct, EReal.left_distrib_of_nonneg_of_ne_top hc0 hct, mul_zero,
    mul_finset_sum c hc0 hct, ha, Finset.sum_congr rfl hfg]

end Cert.Gcn
-- ==== Proof.LayerEq.lean ====
/-
  THE LAYER IDENTITY.  The kernel scales the linear transform `h` by `dinv` on the node side BEFORE the edges
  gather it, sums the gathered rows at each target, and multiplies the sum and the self term by `dinv` of the
  target afterwards:      dinv[n] · ( Σ_{e → n} h[s e] · dinv[s e]  +  h[n] · dinv[n] ) + b.
  The reference multiplies every message by the edge coefficient `dinv[s e] · dinv[t e]` first:
                          ( Σ_{e → n} h[s e] · (dinv[s e] · dinv[t e])  +  h[n] · (dinv[n] · dinv[n]) ) + b.
  An edge lands at `n` exactly when its target index, read signed, is `n`; then the clamped read of `dinv` at
  that index is `dinv[n]`, a NONNEGATIVE REAL (the inverse square root of a positive count), and such a factor
  distributes over a finite sum of extended reals whatever the messages are (Algebra.lean).  No finiteness of the
  features, weights or biases is used.
-/
import proofs.«164821_j27066883899917_2_alg».proof.Proof.RefLayer
import proofs.«164821_j27066883899917_2_alg».proof.Proof.Indexing
import proofs.«164821_j27066883899917_2_alg».proof.Proof.Spec
import proofs.«164821_j27066883899917_2_alg».proof.Proof.Algebra
import Idealize.ShloMosaic.Lib.Pipeline.Value
import Idealize.ShloMosaic.Lib.ValueLayout

noncomputable section

open scoped BigOperators

namespace Cert.ReferenceIdeal.Layer

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-! ## The operations of a layer read at an index -/

/-- The row gather at an edge row: the operand's row at the clamped start index. -/
theorem gR_apply {α : Type} (x : S50000x128.Idx → α) (idx : IVec S600000x1 32) (j : S600000x128.Idx) :
    Host.gather gather_S50000x128_S600000x1_S600000x128_1_0_n_n_0_1_1128 x idx j = x (ix2 (Cert.Gcn.clampRow idx (j 0)) (j 1)) :=
  Cert.Gcn.rowGather_apply Facts₀.gather_S50000x128_S600000x1_S600000x128_1_0_n_n_0_1_1128_wf x idx j

/-- The scalar gather at an edge: the operand at the clamped start index. -/
theorem gV_apply {α : Type} (x : S50000.Idx → α) (idx : IVec S600000x1 32) (e : S600000.Idx) :
    Host.gather gather_S50000_S600000x1_S600000_n_0_n_n_0_1_1 x idx e = x (ix1 (Cert.Gcn.clampRow idx (e 0))) :=
  Cert.Gcn.vecGather_apply Facts₀.gather_S50000_S600000x1_S600000_n_0_n_n_0_1_1_wf x idx e

/-- An edge row that lands at node row `i` has target index `i 0`, read signed. -/
theorem hit_toInt (idx : IVec S600000x1 32) (j : S600000x128.Idx) (i : S50000x128.Idx)
    (h : scatter_S50000x128_S600000x1_S600000x128_1_0_0_1.resultIdx? j idx = some i) :
    (idx (ix2 (j 0) 0)).toInt = ((i 0).val : ℤ) :=
  Cert.Gcn.rowScatter_hit Facts₀.scatter_S50000x128_S600000x1_S600000x128_1_0_0_1_wf idx j i h

/-- The accumulating scatter at a node row: the operand plus the sum of the edge rows that land there. -/
theorem scat_apply (z : FVec Ideal S50000x128 .f32) (idx : IVec S600000x1 32) (upd : FVec Ideal S600000x128 .f32) (i : S50000x128.Idx) :
    Host.scatterAdd (F := Ideal) scatter_S50000x128_S600000x1_S600000x128_1_0_0_1 z idx upd i
      = z i + ∑ j ∈ Finset.univ.filter (fun j => scatter_S50000x128_S600000x1_S600000x128_1_0_0_1.resultIdx? j idx = some i), upd j := rfl

/-- A node vector cast to a column reads the vector. -/
theorem col_cast {α : Type} (v : S50000.Idx → α) (h : S50000.ShapeCasts S50000x1) (n : Fin 50000) (u : Fin 1) :
    shapeCast S50000x1 v h (ix2 n u) = v (ix1 n) :=
  shapeCast_apply v h _ _ (by
    have hu : u.val = 0 := by omega
    rw [Shape.rowMajor_val_two, Shape.rowMajor_val_one]
    show n.val = n.val * 1 + u.val
    rw [hu, Nat.mul_one, Nat.add_zero])

/-- An edge vector broadcast along the feature axis reads the vector at the edge. -/
theorem bc_edge {α : Type} (c : S600000.Idx → α) (j : S600000x128.Idx) :
    broadcastInDim S600000x128 ![0, 1] bcast_S600000x1_S600000x128_0_1 (broadcastInDim S600000x1 ![0] bcast_S600000_S600000x1_0 c) j
      = c (ix1 (j 0)) := by
  rw [broadcastInDim_apply _ bcast_S600000x1_S600000x128_0_1 _ j (ix2 (j 0) 0) (fun a => match a with
    | ⟨0, _⟩ => by show (j 0).val = if (600000 : Nat) = 1 then 0 else (j 0).val; rw [if_neg (by decide)]
    | ⟨1, _⟩ => by show 0 = if (1 : Nat) = 1 then 0 else (j 1).val; rw [if_pos rfl])]
  exact broadcastInDim_apply _ bcast_S600000_S600000x1_0 c (ix2 (j 0) 0) (ix1 (j 0)) (fun a => match a with
    | ⟨0, _⟩ => by show (j 0).val = if (600000 : Nat) = 1 then 0 else (j 0).val; rw [if_neg (by decide)])

/-- A node vector broadcast along the feature axis reads the vector at the node. -/
theorem bc_node' {α : Type} (v : S50000.Idx → α) (i : S50000x128.Idx) :
    broadcastInDim S50000x128 ![0, 1] bcast_S50000x1_S50000x128_0_1 (broadcastInDim S50000x1 ![0] bcast_S50000_S50000x1_0 v) i
      = v (ix1 (i 0)) := by
  rw [broadcastInDim_apply _ bcast_S50000x1_S50000x128_0_1 _ i (ix2 (i 0) 0) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])]
  exact broadcastInDim_apply _ bcast_S50000_S50000x1_0 v (ix2 (i 0) 0) (ix1 (i 0)) (fun a => match a with
    | ⟨0, _⟩ => by show (i 0).val = if (50000 : Nat) = 1 then 0 else (i 0).val; rw [if_neg (by decide)])

/-- The bias vector broadcast along the node axis reads the vector at the feature. -/
theorem bc_bias' {α : Type} (bv : S128.Idx → α) (i : S50000x128.Idx) :
    broadcastInDim S50000x128 ![0, 1] bcast_S1x128_S50000x128_0_1 (broadcastInDim S1x128 ![1] bcast_S128_S1x128_1 bv) i
      = bv (ix1 (i 1)) := by
  rw [broadcastInDim_apply _ bcast_S1x128_S50000x128_0_1 _ i (ix2 0 (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply _ bcast_S128_S1x128_1 bv (ix2 0 (i 1)) (ix1 (i 1)) (fun a => match a with
    | ⟨0, _⟩ => by show (i 1).val = if (128 : Nat) = 1 then 0 else (i 1).val; rw [if_neg (by decide)])

/-- `bc_node'` at coordinates. -/
theorem bc_node {α : Type} (v : S50000.Idx → α) (n : Fin 50000) (q : Fin 128) :
    broadcastInDim S50000x128 ![0, 1] bcast_S50000x1_S50000x128_0_1 (broadcastInDim S50000x1 ![0] bcast_S50000_S50000x1_0 v) (ix2 n q)
      = v (ix1 n) := bc_node' v (ix2 n q)
/-- `bc_bias'` at coordinates. -/
theorem bc_bias {α : Type} (bv : S128.Idx → α) (n : Fin 50000) (q : Fin 128) :
    broadcastInDim S50000x128 ![0, 1] bcast_S1x128_S50000x128_0_1 (broadcastInDim S1x128 ![1] bcast_S128_S1x128_1 bv) (ix2 n q)
      = bv (ix1 q) := bc_bias' bv (ix2 n q)
/-- The scalar gather at edge `e`. -/
theorem gV_ix1 {α : Type} (x : S50000.Idx → α) (idx : IVec S600000x1 32) (e : Fin 600000) :
    Host.gather gather_S50000_S600000x1_S600000_n_0_n_n_0_1_1 x idx (ix1 e) = x (ix1 (Cert.Gcn.clampRow idx e)) :=
  gV_apply x idx (ix1 e)
/-- The affine map of a layer at coordinates. -/
theorem pre_ix2 (A B : FVec Ideal Cert.Gcn.SN .f32) (C : FVec Ideal Cert.Gcn.SD .f32) (D : FVec Ideal Cert.Gcn.SB .f32)
    (n : Fin 50000) (q : Fin 128) :
    Cert.Gcn.pre A B C D (ix2 n q) = C (ix2 n 0) * (A (ix2 n q) + B (ix2 n q)) + D (ix2 0 q) := rfl
/-- A scaled row at coordinates. -/
theorem scaleRows_ix2 (h : FVec Ideal Cert.Gcn.SN .f32) (d : FVec Ideal Cert.Gcn.SD .f32) (n : Fin 50000) (q : Fin 128) :
    Cert.Gcn.scaleRows h d (ix2 n q) = h (ix2 n q) * d (ix2 n 0) := rfl

/-! ## The degrees and the target indices -/

/-- The inverse square root of a node's degree is a nonnegative real: the degree is a count plus one. -/
theorem dinv_nonneg_real (x5 : IVec S2x600000 32) (n : Fin 50000) :
    ∃ r : ℝ, 0 ≤ r ∧ val_main_v11 (F := Ideal) x5 (ix1 n) = (r : EReal) :=
  Cert.Gcn.dinv_real Facts₀.scatter_S50000_S600000x1_S600000_n_0_0_1_wf bcast_S_S50000 bcast_S_S600000
    (val_main_v7 (F := Ideal) x5) (ix1 n)

/-- An edge row that lands at node row `i` reads `dinv` of its target at node `i 0`: the target index read signed
    is the node's number, so it is not negative (the wrap-around of negative indices leaves it alone) and in range
    (the gather's clamp leaves it alone). -/
theorem dst_link (x5 : IVec S2x600000 32) (j : S600000x128.Idx) (n : Fin 50000) (q : Fin 128)
    (h : scatter_S50000x128_S600000x1_S600000x128_1_0_0_1.resultIdx? j (val_main_v38 (F := Ideal) x5) = some (ix2 n q)) :
    Cert.Gcn.clampRow (val_main_v24 (F := Ideal) x5) (j 0) = n := by
  have h1 : (val_main_v38 (F := Ideal) x5 (ix2 (j 0) 0)).toInt = (n.val : ℤ) := hit_toInt _ j (ix2 n q) h
  have e38 : val_main_v38 (F := Ideal) x5 (ix2 (j 0) 0) = val_main_v3 (F := Ideal) x5 (ix1 (j 0)) :=
    Cert.Gcn.col_apply bcast_S600000_S600000x1_0 _ (j 0)
  rw [e38] at h1
  refine Cert.Gcn.clampRow_of_toInt _ _ _ ?_
  have e24 : val_main_v24 (F := Ideal) x5 (ix2 (j 0) 0) = val_main_v23 (F := Ideal) x5 (ix1 (j 0)) :=
    Cert.Gcn.col_apply bcast_S600000_S600000x1_0 _ (j 0)
  rw [e24]
  have e23 : val_main_v23 (F := Ideal) x5 (ix1 (j 0)) = val_main_v3 (F := Ideal) x5 (ix1 (j 0)) :=
    Cert.Gcn.norm_of_nonneg bcast_S_S600000 (val_main_v3 (F := Ideal) x5) (ix1 (j 0)) (by rw [h1]; exact Int.natCast_nonneg _)
  rw [e23]; exact h1

/-! ## The two arrangements of a layer -/

/-- The layer before the rectifier, as the reference arranges it. -/
def refPre (h : FVec Ideal S50000x128 .f32) (bv : FVec Ideal S128 .f32) (x5 : IVec S2x600000 32) : FVec Ideal S50000x128 .f32 :=
  addf (addf (Host.scatterAdd scatter_S50000x128_S600000x1_S600000x128_1_0_0_1 (val_main_v37 (F := Ideal)) (val_main_v38 (F := Ideal) x5)
        (mulf (Host.gather gather_S50000x128_S600000x1_S600000x128_1_0_n_n_0_1_1128 h (val_main_v32 (F := Ideal) x5))
          (broadcastInDim S600000x128 ![0, 1] bcast_S600000x1_S600000x128_0_1 (broadcastInDim S600000x1 ![0] bcast_S600000_S600000x1_0
            (mulf (Host.gather gather_S50000_S600000x1_S600000_n_0_n_n_0_1_1 (val_main_v11 (F := Ideal) x5) (val_main_v17 (F := Ideal) x5))
              (Host.gather gather_S50000_S600000x1_S600000_n_0_n_n_0_1_1 (val_main_v11 (F := Ideal) x5) (val_main_v24 (F := Ideal) x5)))))))
      (mulf h (broadcastInDim S50000x128 ![0, 1] bcast_S50000x1_S50000x128_0_1
        (broadcastInDim S50000x1 ![0] bcast_S50000_S50000x1_0 (mulf (val_main_v11 (F := Ideal) x5) (val_main_v11 (F := Ideal) x5))))))
    (broadcastInDim S50000x128 ![0, 1] bcast_S1x128_S50000x128_0_1 (broadcastInDim S1x128 ![1] bcast_S128_S1x128_1 bv))

/-- The reference's layer is the rectifier of `refPre`, entry by entry. -/
theorem refLayer_apply (h : FVec Ideal S50000x128 .f32) (bv : FVec Ideal S128 .f32) (x5 : IVec S2x600000 32) (i : S50000x128.Idx) :
    refLayer (F := Ideal) h bv x5 i = Cert.Gcn.lrelu (refPre h bv x5 i) := by
  have h48 : val_main_v48 (F := Ideal) i = FloatOps.ofBits (F := Ideal) .f32 0x00000000#32 := by rw [val_main_v48_apply]; rfl
  have h50 : val_main_v50 (F := Ideal) i = FloatOps.ofBits (F := Ideal) .f32 0x3C23D70A#32 := by rw [val_main_v50_apply]; rfl
  show Scalar.select (FloatOps.cmpf .ogt (refPre h bv x5 i) (val_main_v48 (F := Ideal) i)) (refPre h bv x5 i)
      (FloatOps.mulf (val_main_v50 (F := Ideal) i) (refPre h bv x5 i)) = _
  rw [h48, h50]
  rfl

/-- The layer as the kernel arranges it: `h` scaled by `dinv` on the node side, gathered along the edges and summed at
    the targets, then `dinv · (sum + self) + bias` and the rectifier (`Cert.Gcn.act`). -/
def kerLayer (h : FVec Ideal S50000x128 .f32) (bv : FVec Ideal S128 .f32) (x5 : IVec S2x600000 32)
    (hsc : S50000.ShapeCasts S50000x1) (hsb : S128.ShapeCasts S1x128) : FVec Ideal S50000x128 .f32 :=
  Cert.Gcn.act
    (Host.scatterAdd scatter_S50000x128_S600000x1_S600000x128_1_0_0_1 (val_main_v37 (F := Ideal)) (val_main_v38 (F := Ideal) x5)
      (Host.gather gather_S50000x128_S600000x1_S600000x128_1_0_n_n_0_1_1128
        (Cert.Gcn.scaleRows h (shapeCast S50000x1 (val_main_v11 (F := Ideal) x5) hsc)) (val_main_v32 (F := Ideal) x5)))
    (Cert.Gcn.scaleRows h (shapeCast S50000x1 (val_main_v11 (F := Ideal) x5) hsc))
    (shapeCast S50000x1 (val_main_v11 (F := Ideal) x5) hsc)
    (shapeCast S1x128 bv hsb)

/-- THE LAYER IDENTITY: the two arrangements are one function, for every `h`, bias and edge index array. -/
theorem layer_eq (h : FVec Ideal S50000x128 .f32) (bv : FVec Ideal S128 .f32) (x5 : IVec S2x600000 32)
    (hsc : S50000.ShapeCasts S50000x1) (hsb : S128.ShapeCasts S1x128) :
    kerLayer h bv x5 hsc hsb = refLayer (F := Ideal) h bv x5 := by
  funext i
  obtain ⟨n, q, rfl⟩ : ∃ (n : Fin 50000) (q : Fin 128), i = ix2 n q := ⟨i 0, i 1, eq_ix2 i⟩
  rw [refLayer_apply]
  unfold kerLayer Cert.Gcn.act
  beta_reduce
  refine congrArg Cert.Gcn.lrelu ?_
  obtain ⟨r, hr0, hr⟩ := dinv_nonneg_real x5 n
  have hz : val_main_v37 (F := Ideal) (ix2 n q) = 0 := by
    rw [val_main_v37_apply]; exact Cert.Gcn.ofBits_f32_zero
  have e17 : val_main_v17 (F := Ideal) x5 = val_main_v32 (F := Ideal) x5 := rfl
  rw [pre_ix2, scaleRows_ix2, scat_apply, col_cast, Idealize.ShloMosaic.ValueIdx.shapeCast_a_1a_apply]
  unfold refPre
  rw [addf_apply, addf_apply, mulf_apply, scat_apply, bc_node, bc_bias, mulf_apply]
  refine Cert.Gcn.layer_core (val_main_v11 (F := Ideal) x5 (ix1 n)) (by rw [hr]; exact EReal.coe_nonneg.mpr hr0)
    (by rw [hr]; exact EReal.coe_ne_top r) _ _ _ (fun j hj => ?_) _ _ _ _ hz (by rw [mul_comm, mul_assoc])
  -- one message: the target's factor moves inside
  have hhit := (Finset.mem_filter.mp hj).2
  obtain ⟨e, p, rfl⟩ : ∃ (e : Fin 600000) (p : Fin 128), j = ix2 e p := ⟨j 0, j 1, eq_ix2 j⟩
  have hd : Cert.Gcn.clampRow (val_main_v24 (F := Ideal) x5) e = n := dst_link x5 (ix2 e p) n q hhit
  rw [gR_apply, mulf_apply, gR_apply, bc_edge, mulf_apply]
  show val_main_v11 (F := Ideal) x5 (ix1 n) * Cert.Gcn.scaleRows h (shapeCast S50000x1 (val_main_v11 (F := Ideal) x5) hsc)
        (ix2 (Cert.Gcn.clampRow (val_main_v32 (F := Ideal) x5) e) p)
      = h (ix2 (Cert.Gcn.clampRow (val_main_v32 (F := Ideal) x5) e) p)
        * (Host.gather gather_S50000_S600000x1_S600000_n_0_n_n_0_1_1 (val_main_v11 (F := Ideal) x5) (val_main_v17 (F := Ideal) x5) (ix1 e)
          * Host.gather gather_S50000_S600000x1_S600000_n_0_n_n_0_1_1 (val_main_v11 (F := Ideal) x5) (val_main_v24 (F := Ideal) x5) (ix1 e))
  rw [scaleRows_ix2, col_cast, gV_ix1, gV_ix1, hd, e17, mul_comm, mul_assoc]

end Cert.ReferenceIdeal.Layer

end
-- ==== Proof.RegionValue0.lean ====
/-
  The value of the first kernel region as one function of whole arrays.  The body's payload at entry `(p, q)` of a
  block is `(∑ k, x p k * w k q) * d p` of the blocks' entries (the matrix product from a zero accumulator read as the sum
  over the 128 contracted columns; the narrowing to bf16 is the identity on extended reals); block `t` of a row-blocked
  window is rows `5000 t … 5000 t + 4999` of its array and the weight window's one block is the weight array, so what
  grid point `t` writes back is block `t` of `Cert.Gcn.R0` of the region's input arrays; the ten blocks cover the output.
-/
import proofs.«164821_j27066883899917_2_alg».proof.Proof.Patched.KernelIdeal.Frame
import proofs.«164821_j27066883899917_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

namespace R0

theorem hz : (![0, 0] : Fin 2 → Nat) = fun _ => 0 := funext fun a => by fin_cases a <;> rfl

/-! ## The body's payload at an index of the block -/
/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block matrix product at an index -/

theorem lhs_row (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (k : dot_S5000x128_S128x128_S5000x128_1_0_0_1_n_n.contr.Idx) : (dot_S5000x128_S128x128_S5000x128_1_0_0_1_n_n.lhsIdx i k 1).val = (k ⟨0, by decide⟩).val :=
  dot_S5000x128_S128x128_S5000x128_1_0_0_1_n_n.lhsIdx_val_of_single rfl i k
theorem rhs_row (i : S5000x128.Idx) (k : dot_S5000x128_S128x128_S5000x128_1_0_0_1_n_n.contr.Idx) : (dot_S5000x128_S128x128_S5000x128_1_0_0_1_n_n.rhsIdx i k 0).val = (k ⟨0, by decide⟩).val :=
  dot_S5000x128_S128x128_S5000x128_1_0_0_1_n_n.rhsIdx_val_of_single rfl i k
theorem rhs_col (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's matrix product of a block of rows with the weights, from a zero accumulator, at `(p, q)`:
    the sum over the 128 contracted columns. -/
theorem matmul_blk_apply {φ₁ φ₂ : FTy} (x : FVec Ideal S5000x128 φ₁) (w : FVec Ideal S128x128 φ₂) (p : Fin 5000) (q : Fin 128) :
    matmul (F := Ideal) dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The first body's payload at an index of the block. -/
theorem pay0_apply (x : Vec Ideal S5000x128 .f32) (w : Vec Ideal S128x128 .f32) (d : Vec Ideal S5000x1 .f32)
    (p : Fin 5000) (q : Fin 128) :
    k0_pay1 (F := Ideal) x w d (ix2 p q) = (∑ k : Fin 128, x (ix2 p k) * w (ix2 k q)) * d (ix2 p 0) := by
  unfold k0_pay1
  simp only [shapeCast_self]
  show matmul (F := Ideal) dot_S5000x128_S128x128_S5000x128_1_0_0_1_n_n none (truncf .bf16 x bitsLt_bf16_f32) (truncf .bf16 w bitsLt_bf16_f32)
      (constant (F := Ideal) S5000x128 .f32 0x00000000#32) (ix2 p q) * broadcastTo S5000x128 d broadcasts_S5000x1_S5000x128 (ix2 p q) = _
  rw [matmul_blk_apply, broadcastTo_a1_ab_apply]
  rfl

theorem pay0_at (x : Vec Ideal S5000x128 .f32) (w : Vec Ideal S128x128 .f32) (d : Vec Ideal S5000x1 .f32)
    (p : Fin 5000) (q : Fin 128) (xv wv : Fin 128 → EReal) (dv : EReal)
    (hx : ∀ k, x (ix2 p k) = xv k) (hw : ∀ k, w (ix2 k q) = wv k) (hd : d (ix2 p 0) = dv) :
    k0_pay1 (F := Ideal) x w d (ix2 p q) = (∑ k : Fin 128, xv k * wv k) * dv := by
  rw [pay0_apply, hd]
  exact congrArg (· * dv) (Finset.sum_congr rfl fun k _ => by rw [hx, hw])

/-! # The first region: the product with the weights, rows scaled -/

/-- The printed index maps, decided over the ten grid points: a row-blocked window is at block `(t, 0)`, a whole-array
    window at block `(0, 0)`. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0 :=
  (by decide +kernel : ∀ t : Fin grid0.N, _)

theorem blk0_0 (c : Dev nD) (t : Fin cfg0.N) (p : Fin 5000) (q : Fin 128) (r : Fin 50000) (hr : r.val = 5000 * t.val + p.val) :
    (iblk0 (F := Ideal) V c 0 t : Vec Ideal S5000x128 .f32) (ix2 p q)
      = (V c (Pipeline.arrRef spec0 0) : FVec Ideal Cert.Gcn.SN .f32) (ix2 r q) := by
  have e := idx0 t
  show (V c (Pipeline.arrRef spec0 0) : FVec Ideal Cert.Gcn.SN .f32) (((cfg0.win 0).blk t).view.emb (ix2 p q)) = _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * q.val = q.val; omega

theorem blk0_1 (c : Dev nD) (t : Fin cfg0.N) (k : Fin 128) (q : Fin 128) :
    (iblk0 (F := Ideal) V c 1 t : Vec Ideal S128x128 .f32) (ix2 k q)
      = (V c (Pipeline.arrRef spec0 1) : FVec Ideal Cert.Gcn.SW .f32) (ix2 k q) := by
  have e := idx0 t
  show (V c (Pipeline.arrRef spec0 1) : FVec Ideal Cert.Gcn.SW .f32) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

theorem blk0_2 (c : Dev nD) (t : Fin cfg0.N) (p : Fin 5000) (r : Fin 50000) (hr : r.val = 5000 * t.val + p.val) :
    (iblk0 (F := Ideal) V c 2 t : Vec Ideal S5000x1 .f32) (ix2 p 0)
      = (V c (Pipeline.arrRef spec0 2) : FVec Ideal Cert.Gcn.SD .f32) (ix2 r 0) := by
  have e := idx0 t
  show (V c (Pipeline.arrRef spec0 2) : FVec Ideal Cert.Gcn.SD .f32) (((cfg0.win 2).blk t).view.emb (ix2 p 0)) = _
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * (0 : Fin 1).val = (0 : Fin 1).val; omega

/-- Entry `(p, q)` of the output window's block `t` is entry `(5000 t + p, q)` of its array. -/
theorem out_emb0 (t : Fin cfg0.N) (p : Fin 5000) (q : Fin 128) (r : Fin 50000) (hr : r.val = 5000 * t.val + p.val) :
    ((cfg0.win 3).blk t).view.emb (ix2 p q) = (ix2 r q : Cert.Gcn.SN.Idx) := by
  have e := idx0 t
  refine funext fun a => Fin.ext ?_
  match a with
  | ⟨0, _⟩ => show win0_3.index t (0 : Fin 2) * 5000 + 1 * p.val = r.val; omega
  | ⟨1, _⟩ => show win0_3.index t (1 : Fin 2) * 128 + 1 * q.val = q.val; omega

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v12).slice (win0_3.rect t)).set ↔ _
  rw [View.set_slice_whole, Rect.mem_set_unit]
  exact Iff.rfl

/-- The ten blocks cover the output array: row `n` is in block `n / 5000`. -/
theorem cover0 (i : S50000x128.Idx) :
    ∃ t : Fin cfg0.N, (cfg0.win 3).flush t = true ∧ i ∈ ((cfg0.win 3).blk t).view.set := by
  have hN : cfg0.N = 10 := N_0
  have hi0 : (i 0).val < 50000 := (i 0).isLt
  have hi1 : (i 1).val < 128 := (i 1).isLt
  let t : Fin cfg0.N := ⟨(i 0).val / 5000, by omega⟩
  have ht : t.val = (i 0).val / 5000 := rfl
  have e := idx0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- What point `t` writes back is block `t` of `R0` of the region's input arrays. -/
theorem flushed0_eq (c : Dev nD) (t : Fin cfg0.N) :
    (dat0 (F := Ideal) V c).flushed 3 t = ((cfg0.win 3).blk t).view.read (Elt Ideal)
      (Cert.Gcn.R0 (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  have hN : cfg0.N = 10 := N_0
  have ht := t.isLt
  have hp := p.isLt
  obtain ⟨r, hr⟩ : ∃ r : Fin 50000, r.val = 5000 * t.val + p.val := ⟨⟨5000 * t.val + p.val, by omega⟩, rfl⟩
  refine (pay0_at (iblk0 V c 0 t) (iblk0 V c 1 t) (iblk0 V c 2 t) p q
    (fun k => (V c (Pipeline.arrRef spec0 0) : FVec Ideal Cert.Gcn.SN .f32) (ix2 r k)) (fun k => (V c (Pipeline.arrRef spec0 1) : FVec Ideal Cert.Gcn.SW .f32) (ix2 k q)) ((V c (Pipeline.arrRef spec0 2) : FVec Ideal Cert.Gcn.SD .f32) (ix2 r 0))
    (fun k => blk0_0 V c t p k r hr) (fun k => blk0_1 V c t k q) (blk0_2 V c t p r hr)).trans ?_
  show _ = Cert.Gcn.R0 (V c (Pipeline.arrRef spec0 0)) (V c (Pipeline.arrRef spec0 1)) (V c (Pipeline.arrRef spec0 2))
    (((cfg0.win 3).blk t).view.emb (ix2 p q))
  rw [out_emb0 t p q r hr]
  rfl

end R0

open R0 in
/-- The first region's output array after the region: `R0` of its input arrays. -/
theorem region0 (c : Dev nD) : (dat0 (F := Ideal) V c).arrAt 3 cfg0.N
    = Cert.Gcn.R0 (V c (Pipeline.arrRef spec0 0)) (V c (Pipeline.arrRef spec0 1)) (V c (Pipeline.arrRef spec0 2)) :=
  (dat0 (F := Ideal) V c).arrAt_eq_of_cover 3 _ (fun t _ => flushed0_eq V c t) cover0

end Cert.KernelIdeal.RegionValue

end
-- ==== Proof.RegionValue1.lean ====
/-
  The value of the second kernel region as one function of whole arrays.  The body's payload at entry `(p, q)` of a
  block is `(∑ k, lrelu (d p * (agg p k + hs p k) + b k) * w k q) * d p` of the blocks' entries; block `t` of a
  row-blocked window is rows `5000 t … 5000 t + 4999` of its array, the bias and weight windows' one block is the whole
  array, so what grid point `t` writes back is block `t` of `Cert.Gcn.R1` of the region's input arrays; the ten blocks
  cover the output array.
-/
import proofs.«164821_j27066883899917_2_alg».proof.Proof.Patched.KernelIdeal.Frame
import proofs.«164821_j27066883899917_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

namespace R1

theorem hz : (![0, 0] : Fin 2 → Nat) = fun _ => 0 := funext fun a => by fin_cases a <;> rfl

/-! ## The body's payload at an index of the block -/
/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The affine part of the second and third bodies at an index of the block. -/
theorem pre_apply (d : FVec Ideal S5000x1 .f32) (a h : FVec Ideal S5000x128 .f32) (b : FVec Ideal S1x128 .f32)
    (p : Fin 5000) (q : Fin 128) :
    addf (F := Ideal) (φ := .f32) (mulf (F := Ideal) (φ := .f32) (broadcastTo S5000x128 d broadcasts_S5000x1_S5000x128) (addf (F := Ideal) (φ := .f32) a h))
        (broadcastTo S5000x128 b broadcasts_S1x128_S5000x128) (ix2 p q)
      = d (ix2 p 0) * (a (ix2 p q) + h (ix2 p q)) + b (ix2 0 q) := by
  show broadcastTo S5000x128 d broadcasts_S5000x1_S5000x128 (ix2 p q) * (a (ix2 p q) + h (ix2 p q))
      + broadcastTo S5000x128 b broadcasts_S1x128_S5000x128 (ix2 p q) = _
  rw [broadcastTo_a1_ab_apply, broadcastTo_1b_ab_apply]

/-- The third body's payload at an index of the block. -/
theorem pay2_apply (d : Vec Ideal S5000x1 .f32) (a h : Vec Ideal S5000x128 .f32) (b : Vec Ideal S1x128 .f32)
    (p : Fin 5000) (q : Fin 128) :
    k2_pay1 (F := Ideal) d a h b (ix2 p q)
      = Cert.Gcn.lrelu (d (ix2 p 0) * (a (ix2 p q) + h (ix2 p q)) + b (ix2 0 q)) := by
  unfold k2_pay1
  simp only [shapeCast_self]
  rw [← pre_apply d a h b p q]
  rfl

/-! ## The block matrix product at an index -/

theorem lhs_row (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (k : dot_S5000x128_S128x128_S5000x128_1_0_0_1_n_n.contr.Idx) : (dot_S5000x128_S128x128_S5000x128_1_0_0_1_n_n.lhsIdx i k 1).val = (k ⟨0, by decide⟩).val :=
  dot_S5000x128_S128x128_S5000x128_1_0_0_1_n_n.lhsIdx_val_of_single rfl i k
theorem rhs_row (i : S5000x128.Idx) (k : dot_S5000x128_S128x128_S5000x128_1_0_0_1_n_n.contr.Idx) : (dot_S5000x128_S128x128_S5000x128_1_0_0_1_n_n.rhsIdx i k 0).val = (k ⟨0, by decide⟩).val :=
  dot_S5000x128_S128x128_S5000x128_1_0_0_1_n_n.rhsIdx_val_of_single rfl i k
theorem rhs_col (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's matrix product of a block of rows with the weights, from a zero accumulator, at `(p, q)`:
    the sum over the 128 contracted columns. -/
theorem matmul_blk_apply {φ₁ φ₂ : FTy} (x : FVec Ideal S5000x128 φ₁) (w : FVec Ideal S128x128 φ₂) (p : Fin 5000) (q : Fin 128) :
    matmul (F := Ideal) dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The second body's payload at an index of the block. -/
theorem pay1_apply (d : Vec Ideal S5000x1 .f32) (a h : Vec Ideal S5000x128 .f32) (b : Vec Ideal S1x128 .f32)
    (w : Vec Ideal S128x128 .f32) (d' : Vec Ideal S5000x1 .f32) (p : Fin 5000) (q : Fin 128) :
    k1_pay1 (F := Ideal) d a h b w d' (ix2 p q)
      = (∑ k : Fin 128, Cert.Gcn.lrelu (d (ix2 p 0) * (a (ix2 p k) + h (ix2 p k)) + b (ix2 0 k)) * w (ix2 k q)) * d' (ix2 p 0) := by
  have e := fun k : Fin 128 => pay2_apply d a h b p k
  unfold k2_pay1 at e
  simp only [shapeCast_self] at e
  unfold k1_pay1
  simp only [shapeCast_self]
  refine (congrArg₂ (· * ·) (matmul_blk_apply _ _ p q) (broadcastTo_a1_ab_apply d' broadcasts_S5000x1_S5000x128 p q)).trans ?_
  refine congrArg (· * d' (ix2 p 0)) (Finset.sum_congr rfl fun k _ => ?_)
  exact congrArg (· * w (ix2 k q)) (e k)

theorem pay1_at (d : Vec Ideal S5000x1 .f32) (a h : Vec Ideal S5000x128 .f32) (b : Vec Ideal S1x128 .f32)
    (w : Vec Ideal S128x128 .f32) (d' : Vec Ideal S5000x1 .f32) (p : Fin 5000) (q : Fin 128)
    (dv : EReal) (av hv bv wv : Fin 128 → EReal) (dv' : EReal)
    (hd : d (ix2 p 0) = dv) (ha : ∀ k, a (ix2 p k) = av k) (hh : ∀ k, h (ix2 p k) = hv k) (hb : ∀ k, b (ix2 0 k) = bv k)
    (hw : ∀ k, w (ix2 k q) = wv k) (hd' : d' (ix2 p 0) = dv') :
    k1_pay1 (F := Ideal) d a h b w d' (ix2 p q)
      = (∑ k : Fin 128, Cert.Gcn.lrelu (dv * (av k + hv k) + bv k) * wv k) * dv' := by
  rw [pay1_apply, hd, hd']
  exact congrArg (· * dv') (Finset.sum_congr rfl fun k _ => by rw [ha, hh, hb, hw])

/-! # The second region: the rectified layer output times the next weights, rows scaled -/

/-- The printed index maps, decided over the ten grid points: a row-blocked window is at block `(t, 0)`, a whole-array
    window at block `(0, 0)`. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

theorem blk1_0 (c : Dev nD) (t : Fin cfg1.N) (p : Fin 5000) (q : Fin 128) (r : Fin 50000) (hr : r.val = 5000 * t.val + p.val) :
    (iblk1 (F := Ideal) V c 0 t : Vec Ideal S5000x128 .f32) (ix2 p q)
      = (V c (Pipeline.arrRef spec1 0) : FVec Ideal Cert.Gcn.SN .f32) (ix2 r q) := by
  have e := idx1 t
  show (V c (Pipeline.arrRef spec1 0) : FVec Ideal Cert.Gcn.SN .f32) (((cfg1.win 0).blk t).view.emb (ix2 p q)) = _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * q.val = q.val; omega

theorem blk1_1 (c : Dev nD) (t : Fin cfg1.N) (p : Fin 5000) (q : Fin 128) (r : Fin 50000) (hr : r.val = 5000 * t.val + p.val) :
    (iblk1 (F := Ideal) V c 1 t : Vec Ideal S5000x128 .f32) (ix2 p q)
      = (V c (Pipeline.arrRef spec1 1) : FVec Ideal Cert.Gcn.SN .f32) (ix2 r q) := by
  have e := idx1 t
  show (V c (Pipeline.arrRef spec1 1) : FVec Ideal Cert.Gcn.SN .f32) (((cfg1.win 1).blk t).view.emb (ix2 p q)) = _
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * q.val = q.val; omega

theorem blk1_2 (c : Dev nD) (t : Fin cfg1.N) (p : Fin 5000) (r : Fin 50000) (hr : r.val = 5000 * t.val + p.val) :
    (iblk1 (F := Ideal) V c 2 t : Vec Ideal S5000x1 .f32) (ix2 p 0)
      = (V c (Pipeline.arrRef spec1 2) : FVec Ideal Cert.Gcn.SD .f32) (ix2 r 0) := by
  have e := idx1 t
  show (V c (Pipeline.arrRef spec1 2) : FVec Ideal Cert.Gcn.SD .f32) (((cfg1.win 2).blk t).view.emb (ix2 p 0)) = _
  refine congrArg _ (funext fun a => Fin.ext ?_)
  match a with
  | ⟨0, _⟩ => show win1_2.index t (0 : Fin 2) * 5000 + 1 * p.val = r.val; omega
  | ⟨1, _⟩ => show win1_2.index t (1 : Fin 2) * 1 + 1 * (0 : Fin 1).val = (0 : Fin 1).val; omega

theorem blk1_3 (c : Dev nD) (t : Fin cfg1.N) (q : Fin 128) :
    (iblk1 (F := Ideal) V c 3 t : Vec Ideal S1x128 .f32) (ix2 0 q)
      = (V c (Pipeline.arrRef spec1 3) : FVec Ideal Cert.Gcn.SB .f32) (ix2 0 q) := by
  have e := idx1 t
  show (V c (Pipeline.arrRef spec1 3) : FVec Ideal Cert.Gcn.SB .f32) (((cfg1.win 3).blk t).view.emb (ix2 0 q)) = _
  refine congrArg _ (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 128 + 1 * q.val = q.val; omega

theorem blk1_4 (c : Dev nD) (t : Fin cfg1.N) (k : Fin 128) (q : Fin 128) :
    (iblk1 (F := Ideal) V c 4 t : Vec Ideal S128x128 .f32) (ix2 k q)
      = (V c (Pipeline.arrRef spec1 4) : FVec Ideal Cert.Gcn.SW .f32) (ix2 k q) := by
  have e := idx1 t
  show (V c (Pipeline.arrRef spec1 4) : FVec Ideal Cert.Gcn.SW .f32) (((cfg1.win 4).blk t).view.emb (ix2 k q)) = _
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- Entry `(p, q)` of the output window's block `t` is entry `(5000 t + p, q)` of its array. -/
theorem out_emb1 (t : Fin cfg1.N) (p : Fin 5000) (q : Fin 128) (r : Fin 50000) (hr : r.val = 5000 * t.val + p.val) :
    ((cfg1.win 5).blk t).view.emb (ix2 p q) = (ix2 r q : Cert.Gcn.SN.Idx) := by
  have e := idx1 t
  refine funext fun a => Fin.ext ?_
  match a with
  | ⟨0, _⟩ => show win1_5.index t (0 : Fin 2) * 5000 + 1 * p.val = r.val; omega
  | ⟨1, _⟩ => show win1_5.index t (1 : Fin 2) * 128 + 1 * q.val = q.val; omega

/-- An index of the output array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v25).slice (win1_5.rect t)).set ↔ _
  rw [View.set_slice_whole, Rect.mem_set_unit]
  exact Iff.rfl

/-- The ten blocks cover the output array: row `n` is in block `n / 5000`. -/
theorem cover1 (i : S50000x128.Idx) :
    ∃ t : Fin cfg1.N, (cfg1.win 5).flush t = true ∧ i ∈ ((cfg1.win 5).blk t).view.set := by
  have hN : cfg1.N = 10 := N_1
  have hi0 : (i 0).val < 50000 := (i 0).isLt
  have hi1 : (i 1).val < 128 := (i 1).isLt
  let t : Fin cfg1.N := ⟨(i 0).val / 5000, by omega⟩
  have ht : t.val = (i 0).val / 5000 := rfl
  have e := idx1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- What point `t` writes back is block `t` of `R1` of the region's input arrays. -/
theorem flushed1_eq (c : Dev nD) (t : Fin cfg1.N) :
    (dat1 (F := Ideal) V c).flushed 5 t = ((cfg1.win 5).blk t).view.read (Elt Ideal)
      (Cert.Gcn.R1 (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S128x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  have hN : cfg1.N = 10 := N_1
  have ht := t.isLt
  have hp := p.isLt
  obtain ⟨r, hr⟩ : ∃ r : Fin 50000, r.val = 5000 * t.val + p.val := ⟨⟨5000 * t.val + p.val, by omega⟩, rfl⟩
  refine (pay1_at (iblk1 V c 2 t) (iblk1 V c 0 t) (iblk1 V c 1 t) (iblk1 V c 3 t) (iblk1 V c 4 t) (iblk1 V c 2 t) p q
    ((V c (Pipeline.arrRef spec1 2) : FVec Ideal Cert.Gcn.SD .f32) (ix2 r 0)) (fun k => (V c (Pipeline.arrRef spec1 0) : FVec Ideal Cert.Gcn.SN .f32) (ix2 r k)) (fun k => (V c (Pipeline.arrRef spec1 1) : FVec Ideal Cert.Gcn.SN .f32) (ix2 r k))
    (fun k => (V c (Pipeline.arrRef spec1 3) : FVec Ideal Cert.Gcn.SB .f32) (ix2 0 k)) (fun k => (V c (Pipeline.arrRef spec1 4) : FVec Ideal Cert.Gcn.SW .f32) (ix2 k q)) ((V c (Pipeline.arrRef spec1 2) : FVec Ideal Cert.Gcn.SD .f32) (ix2 r 0))
    (blk1_2 V c t p r hr) (fun k => blk1_0 V c t p k r hr) (fun k => blk1_1 V c t p k r hr) (fun k => blk1_3 V c t k)
    (fun k => blk1_4 V c t k q) (blk1_2 V c t p r hr)).trans ?_
  show _ = Cert.Gcn.R1 (V c (Pipeline.arrRef spec1 0)) (V c (Pipeline.arrRef spec1 1)) (V c (Pipeline.arrRef spec1 2)) (V c (Pipeline.arrRef spec1 3)) (V c (Pipeline.arrRef spec1 4))
    (((cfg1.win 5).blk t).view.emb (ix2 p q))
  rw [out_emb1 t p q r hr]
  rfl

end R1

open R1 in
/-- The second region's output array after the region: `R1` of its input arrays. -/
theorem region1 (c : Dev nD) : (dat1 (F := Ideal) V c).arrAt 5 cfg1.N
    = Cert.Gcn.R1 (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5 _ (fun t _ => flushed1_eq V c t) cover1

end Cert.KernelIdeal.RegionValue

end
-- ==== Proof.RegionValue2.lean ====
/-
  The value of the third kernel region as one function of whole arrays.  The body's payload at entry `(p, q)` of a
  block is the leaky rectifier of `d p * (agg + hs) + b q` of the blocks' entries; block `t` of a row-blocked window is
  rows `5000 t … 5000 t + 4999` of its array and the bias window's one block is the bias row, so what grid point `t`
  writes back is block `t` of `Cert.Gcn.R2` of the region's input arrays; the ten blocks cover the output array.
-/
import proofs.«164821_j27066883899917_2_alg».proof.Proof.Patched.KernelIdeal.Frame
import proofs.«164821_j27066883899917_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

namespace R2

theorem hz : (![0, 0] : Fin 2 → Nat) = fun _ => 0 := funext fun a => by fin_cases a <;> rfl

/-! ## The body's payload at an index of the block -/
/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The affine part of the second and third bodies at an index of the block. -/
theorem pre_apply (d : FVec Ideal S5000x1 .f32) (a h : FVec Ideal S5000x128 .f32) (b : FVec Ideal S1x128 .f32)
    (p : Fin 5000) (q : Fin 128) :
    addf (F := Ideal) (φ := .f32) (mulf (F := Ideal) (φ := .f32) (broadcastTo S5000x128 d broadcasts_S5000x1_S5000x128) (addf (F := Ideal) (φ := .f32) a h))
        (broadcastTo S5000x128 b broadcasts_S1x128_S5000x128) (ix2 p q)
      = d (ix2 p 0) * (a (ix2 p q) + h (ix2 p q)) + b (ix2 0 q) := by
  show broadcastTo S5000x128 d broadcasts_S5000x1_S5000x128 (ix2 p q) * (a (ix2 p q) + h (ix2 p q))
      + broadcastTo S5000x128 b broadcasts_S1x128_S5000x128 (ix2 p q) = _
  rw [broadcastTo_a1_ab_apply, broadcastTo_1b_ab_apply]

/-- The third body's payload at an index of the block. -/
theorem pay2_apply (d : Vec Ideal S5000x1 .f32) (a h : Vec Ideal S5000x128 .f32) (b : Vec Ideal S1x128 .f32)
    (p : Fin 5000) (q : Fin 128) :
    k2_pay1 (F := Ideal) d a h b (ix2 p q)
      = Cert.Gcn.lrelu (d (ix2 p 0) * (a (ix2 p q) + h (ix2 p q)) + b (ix2 0 q)) := by
  unfold k2_pay1
  simp only [shapeCast_self]
  rw [← pre_apply d a h b p q]
  rfl

theorem pay2_at (d : Vec Ideal S5000x1 .f32) (a h : Vec Ideal S5000x128 .f32) (b : Vec Ideal S1x128 .f32)
    (p : Fin 5000) (q : Fin 128) (dv av hv bv : EReal)
    (hd : d (ix2 p 0) = dv) (ha : a (ix2 p q) = av) (hh : h (ix2 p q) = hv) (hb : b (ix2 0 q) = bv) :
    k2_pay1 (F := Ideal) d a h b (ix2 p q) = Cert.Gcn.lrelu (dv * (av + hv) + bv) := by
  rw [pay2_apply, hd, ha, hh, hb]

/-! # The third region: the rectified layer output -/

/-- The printed index maps, decided over the ten grid points: a row-blocked window is at block `(t, 0)`, a whole-array
    window at block `(0, 0)`. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

theorem blk2_0 (c : Dev nD) (t : Fin cfg2.N) (p : Fin 5000) (q : Fin 128) (r : Fin 50000) (hr : r.val = 5000 * t.val + p.val) :
    (iblk2 (F := Ideal) V c 0 t : Vec Ideal S5000x128 .f32) (ix2 p q)
      = (V c (Pipeline.arrRef spec2 0) : FVec Ideal Cert.Gcn.SN .f32) (ix2 r q) := by
  have e := idx2 t
  show (V c (Pipeline.arrRef spec2 0) : FVec Ideal Cert.Gcn.SN .f32) (((cfg2.win 0).blk t).view.emb (ix2 p q)) = _
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * q.val = q.val; omega

theorem blk2_1 (c : Dev nD) (t : Fin cfg2.N) (p : Fin 5000) (q : Fin 128) (r : Fin 50000) (hr : r.val = 5000 * t.val + p.val) :
    (iblk2 (F := Ideal) V c 1 t : Vec Ideal S5000x128 .f32) (ix2 p q)
      = (V c (Pipeline.arrRef spec2 1) : FVec Ideal Cert.Gcn.SN .f32) (ix2 r q) := by
  have e := idx2 t
  show (V c (Pipeline.arrRef spec2 1) : FVec Ideal Cert.Gcn.SN .f32) (((cfg2.win 1).blk t).view.emb (ix2 p q)) = _
  refine congrArg _ (funext fun a => Fin.ext ?_)
  match a with
  | ⟨0, _⟩ => show win2_1.index t (0 : Fin 2) * 5000 + 1 * p.val = r.val; omega
  | ⟨1, _⟩ => show win2_1.index t (1 : Fin 2) * 128 + 1 * q.val = q.val; omega

theorem blk2_2 (c : Dev nD) (t : Fin cfg2.N) (p : Fin 5000) (r : Fin 50000) (hr : r.val = 5000 * t.val + p.val) :
    (iblk2 (F := Ideal) V c 2 t : Vec Ideal S5000x1 .f32) (ix2 p 0)
      = (V c (Pipeline.arrRef spec2 2) : FVec Ideal Cert.Gcn.SD .f32) (ix2 r 0) := by
  have e := idx2 t
  show (V c (Pipeline.arrRef spec2 2) : FVec Ideal Cert.Gcn.SD .f32) (((cfg2.win 2).blk t).view.emb (ix2 p 0)) = _
  refine congrArg _ (funext fun a => Fin.ext ?_)
  match a with
  | ⟨0, _⟩ => show win2_2.index t (0 : Fin 2) * 5000 + 1 * p.val = r.val; omega
  | ⟨1, _⟩ => show win2_2.index t (1 : Fin 2) * 1 + 1 * (0 : Fin 1).val = (0 : Fin 1).val; omega

theorem blk2_3 (c : Dev nD) (t : Fin cfg2.N) (q : Fin 128) :
    (iblk2 (F := Ideal) V c 3 t : Vec Ideal S1x128 .f32) (ix2 0 q)
      = (V c (Pipeline.arrRef spec2 3) : FVec Ideal Cert.Gcn.SB .f32) (ix2 0 q) := by
  have e := idx2 t
  show (V c (Pipeline.arrRef spec2 3) : FVec Ideal Cert.Gcn.SB .f32) (((cfg2.win 3).blk t).view.emb (ix2 0 q)) = _
  refine congrArg _ (funext fun a => Fin.ext ?_)
  match a with
  | ⟨0, _⟩ => show win2_3.index t (0 : Fin 2) * 1 + 1 * (0 : Fin 1).val = (0 : Fin 1).val; omega
  | ⟨1, _⟩ => show win2_3.index t (1 : Fin 2) * 128 + 1 * q.val = q.val; omega

/-- Entry `(p, q)` of the output window's block `t` is entry `(5000 t + p, q)` of its array. -/
theorem out_emb2 (t : Fin cfg2.N) (p : Fin 5000) (q : Fin 128) (r : Fin 50000) (hr : r.val = 5000 * t.val + p.val) :
    ((cfg2.win 4).blk t).view.emb (ix2 p q) = (ix2 r q : Cert.Gcn.SN.Idx) := by
  have e := idx2 t
  refine funext fun a => Fin.ext ?_
  match a with
  | ⟨0, _⟩ => show win2_4.index t (0 : Fin 2) * 5000 + 1 * p.val = r.val; omega
  | ⟨1, _⟩ => show win2_4.index t (1 : Fin 2) * 128 + 1 * q.val = q.val; omega

/-- An index of the output array is in point `t`'s block iff each coordinate is in the block's range on its axis. -/
theorem mem_blk2 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v38).slice (win2_4.rect t)).set ↔ _
  rw [View.set_slice_whole, Rect.mem_set_unit]
  exact Iff.rfl

/-- The ten blocks cover the output array: row `n` is in block `n / 5000`. -/
theorem cover2 (i : S50000x128.Idx) :
    ∃ t : Fin cfg2.N, (cfg2.win 4).flush t = true ∧ i ∈ ((cfg2.win 4).blk t).view.set := by
  have hN : cfg2.N = 10 := N_2
  have hi0 : (i 0).val < 50000 := (i 0).isLt
  have hi1 : (i 1).val < 128 := (i 1).isLt
  let t : Fin cfg2.N := ⟨(i 0).val / 5000, by omega⟩
  have ht : t.val = (i 0).val / 5000 := rfl
  have e := idx2 t
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- What point `t` writes back is block `t` of `R2` of the region's input arrays. -/
theorem flushed2_eq (c : Dev nD) (t : Fin cfg2.N) :
    (dat2 (F := Ideal) V c).flushed 4 t = ((cfg2.win 4).blk t).view.read (Elt Ideal)
      (Cert.Gcn.R2 (V c (Pipeline.arrRef spec2 0)) (V c (Pipeline.arrRef spec2 1)) (V c (Pipeline.arrRef spec2 2)) (V c (Pipeline.arrRef spec2 3))) := by
  show (cfg2.win 4).cut (grid2.coords t) ((dat2 (F := Ideal) V c).after 4 t) = _
  rw [after2_4]
  unfold out2_4
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  have hN : cfg2.N = 10 := N_2
  have ht := t.isLt
  have hp := p.isLt
  obtain ⟨r, hr⟩ : ∃ r : Fin 50000, r.val = 5000 * t.val + p.val := ⟨⟨5000 * t.val + p.val, by omega⟩, rfl⟩
  refine (pay2_at (iblk2 V c 2 t) (iblk2 V c 0 t) (iblk2 V c 1 t) (iblk2 V c 3 t) p q _ _ _ _
    (blk2_2 V c t p r hr) (blk2_0 V c t p q r hr) (blk2_1 V c t p q r hr) (blk2_3 V c t q)).trans ?_
  show _ = Cert.Gcn.R2 (V c (Pipeline.arrRef spec2 0)) (V c (Pipeline.arrRef spec2 1)) (V c (Pipeline.arrRef spec2 2)) (V c (Pipeline.arrRef spec2 3))
    (((cfg2.win 4).blk t).view.emb (ix2 p q))
  rw [out_emb2 t p q r hr]
  rfl

end R2

open R2 in
/-- The third region's output array after the region: `R2` of its input arrays. -/
theorem region2 (c : Dev nD) : (dat2 (F := Ideal) V c).arrAt 4 cfg2.N
    = Cert.Gcn.R2 (V c (Pipeline.arrRef spec2 0)) (V c (Pipeline.arrRef spec2 1)) (V c (Pipeline.arrRef spec2 2)) (V c (Pipeline.arrRef spec2 3)) :=
  (dat2 (F := Ideal) V c).arrAt_eq_of_cover 4 _ (fun t _ => flushed2_eq V c t) cover2

end Cert.KernelIdeal.RegionValue

end
-- ==== Proof.KernelValue.lean ====
/-
  The idealized kernel's result as a function of its arguments.  The program is four stretches of host
  operations around three kernel launches; the buffer contents at each boundary are a fold from the launch
  memory.  Read back through the fold: the edge index columns and the inverse square roots of the degrees are the
  same terms the reference computes; each launch leaves its region function (`Cert.Gcn.R0/R1/R2`) of its operands;
  the gathers and scatters between the launches and the mean pooling at the end are host operations.  Composed,
  the result is the pooling of the second layer in the kernel's arrangement (`kerLayer`) applied to the matrix
  product of the first layer with the second weights.
-/
import proofs.«164821_j27066883899917_2_alg».proof.Proof.Patched.KernelIdeal.Frame
import proofs.«164821_j27066883899917_2_alg».proof.Proof.LayerEq
import proofs.«164821_j27066883899917_2_alg».proof.Proof.RegionValue0
import proofs.«164821_j27066883899917_2_alg».proof.Proof.RegionValue1
import proofs.«164821_j27066883899917_2_alg».proof.Proof.RegionValue2
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Cert.ReferenceIdeal.Read Cert.ReferenceIdeal.Layer

variable (m : (ℓ : Loc nD τ sig) → Buf (Elt Ideal) ℓ) (ρ : Dev nD → PrngReg) (c : Dev nD)

/-! ## Before the first launch -/

theorem W1_arg0 : W1 m ρ c (Proc.devRef .tc main_arg0) = m ((c : Thread nD τ).loc main_arg0) := by
  show StableHlo.after hostOps0 (W0 m ρ c) (Proc.devRef .tc main_arg0) = _
  after_results
theorem W1_arg1 : W1 m ρ c (Proc.devRef .tc main_arg1) = m ((c : Thread nD τ).loc main_arg1) := by
  show StableHlo.after hostOps0 (W0 m ρ c) (Proc.devRef .tc main_arg1) = _
  after_results
theorem W1_arg2 : W1 m ρ c (Proc.devRef .tc main_arg2) = m ((c : Thread nD τ).loc main_arg2) := by
  show StableHlo.after hostOps0 (W0 m ρ c) (Proc.devRef .tc main_arg2) = _
  after_results
theorem W1_arg3 : W1 m ρ c (Proc.devRef .tc main_arg3) = m ((c : Thread nD τ).loc main_arg3) := by
  show StableHlo.after hostOps0 (W0 m ρ c) (Proc.devRef .tc main_arg3) = _
  after_results
theorem W1_arg4 : W1 m ρ c (Proc.devRef .tc main_arg4) = m ((c : Thread nD τ).loc main_arg4) := by
  show StableHlo.after hostOps0 (W0 m ρ c) (Proc.devRef .tc main_arg4) = _
  after_results
theorem W1_arg6 : W1 m ρ c (Proc.devRef .tc main_arg6) = m ((c : Thread nD τ).loc main_arg6) := by
  show StableHlo.after hostOps0 (W0 m ρ c) (Proc.devRef .tc main_arg6) = _
  after_results
/-- The source indices of the edges. -/
theorem W1_v1 : W1 m ρ c (Proc.devRef .tc main_v1) = val_main_v1 (F := Ideal) (m ((c : Thread nD τ).loc main_arg5)) := by
  show StableHlo.after hostOps0 (W0 m ρ c) (Proc.devRef .tc main_v1) = _
  after_results; rfl
/-- The target indices of the edges. -/
theorem W1_v3 : W1 m ρ c (Proc.devRef .tc main_v3) = val_main_v3 (F := Ideal) (m ((c : Thread nD τ).loc main_arg5)) := by
  show StableHlo.after hostOps0 (W0 m ρ c) (Proc.devRef .tc main_v3) = _
  after_results; rfl
/-- The inverse square roots of the degrees. -/
theorem W1_v10 : W1 m ρ c (Proc.devRef .tc main_v10) = val_main_v11 (F := Ideal) (m ((c : Thread nD τ).loc main_arg5)) := by
  show StableHlo.after hostOps0 (W0 m ρ c) (Proc.devRef .tc main_v10) = _
  after_results; rfl
/-- The same as a column. -/
theorem W1_v11 : W1 m ρ c (Proc.devRef .tc main_v11)
    = shapeCast S50000x1 (val_main_v11 (F := Ideal) (m ((c : Thread nD τ).loc main_arg5))) shapeCasts_S50000_S50000x1 := by
  show StableHlo.after hostOps0 (W0 m ρ c) (Proc.devRef .tc main_v11) = _
  after_results; rfl

/-! ## The first launch, and the host operations up to the second -/

/-- The messages summed at their targets: the rows of `hs` gathered at the edges' sources, scattered to the targets. -/
abbrev aggOf (hs : FVec Ideal Cert.Gcn.SN .f32) (x5 : IVec Cert.ReferenceIdeal.S2x600000 32) : FVec Ideal Cert.Gcn.SN .f32 :=
  Host.scatterAdd (F := Ideal) Cert.ReferenceIdeal.scatter_S50000x128_S600000x1_S600000x128_1_0_0_1 (val_main_v37 (F := Ideal))
    (val_main_v38 (F := Ideal) x5)
    (Host.gather Cert.ReferenceIdeal.gather_S50000x128_S600000x1_S600000x128_1_0_n_n_0_1_1128 hs (val_main_v32 (F := Ideal) x5))

/-- The first launch leaves the product of the features with the first weights, rows scaled. -/
theorem W2_v12 : W2 m ρ c (Proc.devRef .tc main_v12)
    = Cert.Gcn.R0 (m ((c : Thread nD τ).loc main_arg0)) (m ((c : Thread nD τ).loc main_arg1))
        (shapeCast S50000x1 (val_main_v11 (F := Ideal) (m ((c : Thread nD τ).loc main_arg5))) shapeCasts_S50000_S50000x1) := by
  refine (W2_arr m ρ c 3).trans ?_
  rw [Cert.KernelIdeal.RegionValue.region0 (V1 m ρ) c]
  show Cert.Gcn.R0 (W1 m ρ c (Proc.devRef .tc main_arg0)) (W1 m ρ c (Proc.devRef .tc main_arg1)) (W1 m ρ c (Proc.devRef .tc main_v11)) = _
  rw [W1_arg0, W1_arg1, W1_v11]

theorem W3_v1 : W3 m ρ c (Proc.devRef .tc main_v1) = val_main_v1 (F := Ideal) (m ((c : Thread nD τ).loc main_arg5)) := by
  show StableHlo.after hostOps1 (W2 m ρ c) (Proc.devRef .tc main_v1) = _
  after_results
  exact (W2_of_ne m ρ c main_v1 (by decide)).trans (W1_v1 m ρ c)
theorem W3_v3 : W3 m ρ c (Proc.devRef .tc main_v3) = val_main_v3 (F := Ideal) (m ((c : Thread nD τ).loc main_arg5)) := by
  show StableHlo.after hostOps1 (W2 m ρ c) (Proc.devRef .tc main_v3) = _
  after_results
  exact (W2_of_ne m ρ c main_v3 (by decide)).trans (W1_v3 m ρ c)
theorem W3_v10 : W3 m ρ c (Proc.devRef .tc main_v10) = val_main_v11 (F := Ideal) (m ((c : Thread nD τ).loc main_arg5)) := by
  show StableHlo.after hostOps1 (W2 m ρ c) (Proc.devRef .tc main_v10) = _
  after_results
  exact (W2_of_ne m ρ c main_v10 (by decide)).trans (W1_v10 m ρ c)
theorem W3_arg3 : W3 m ρ c (Proc.devRef .tc main_arg3) = m ((c : Thread nD τ).loc main_arg3) := by
  show StableHlo.after hostOps1 (W2 m ρ c) (Proc.devRef .tc main_arg3) = _
  after_results
  exact (W2_of_ne m ρ c main_arg3 (by decide)).trans (W1_arg3 m ρ c)
theorem W3_arg4 : W3 m ρ c (Proc.devRef .tc main_arg4) = m ((c : Thread nD τ).loc main_arg4) := by
  show StableHlo.after hostOps1 (W2 m ρ c) (Proc.devRef .tc main_arg4) = _
  after_results
  exact (W2_of_ne m ρ c main_arg4 (by decide)).trans (W1_arg4 m ρ c)
theorem W3_arg6 : W3 m ρ c (Proc.devRef .tc main_arg6) = m ((c : Thread nD τ).loc main_arg6) := by
  show StableHlo.after hostOps1 (W2 m ρ c) (Proc.devRef .tc main_arg6) = _
  after_results
  exact (W2_of_ne m ρ c main_arg6 (by decide)).trans (W1_arg6 m ρ c)
theorem W3_v12 : W3 m ρ c (Proc.devRef .tc main_v12) = W2 m ρ c (Proc.devRef .tc main_v12) := by
  show StableHlo.after hostOps1 (W2 m ρ c) (Proc.devRef .tc main_v12) = _
  after_results
  try rfl
/-- The first layer's messages summed at their targets. -/
theorem W3_v22 : W3 m ρ c (Proc.devRef .tc main_v22)
    = aggOf (W2 m ρ c (Proc.devRef .tc main_v12)) (m ((c : Thread nD τ).loc main_arg5)) := by
  show StableHlo.after hostOps1 (W2 m ρ c) (Proc.devRef .tc main_v22) = _
  after_results
  rw [W2_of_ne m ρ c main_v3 (by decide), W2_of_ne m ρ c main_v1 (by decide), W1_v3, W1_v1]
  rfl
theorem W3_v23 : W3 m ρ c (Proc.devRef .tc main_v23)
    = shapeCast S50000x1 (val_main_v11 (F := Ideal) (m ((c : Thread nD τ).loc main_arg5))) shapeCasts_S50000_S50000x1 := by
  show StableHlo.after hostOps1 (W2 m ρ c) (Proc.devRef .tc main_v23) = _
  after_results
  rw [W2_of_ne m ρ c main_v10 (by decide), W1_v10]
  rfl
theorem W3_v24 : W3 m ρ c (Proc.devRef .tc main_v24)
    = shapeCast S1x128 (m ((c : Thread nD τ).loc main_arg2)) shapeCasts_S128_S1x128 := by
  show StableHlo.after hostOps1 (W2 m ρ c) (Proc.devRef .tc main_v24) = _
  after_results
  rw [W2_of_ne m ρ c main_arg2 (by decide), W1_arg2]
  rfl

/-! ## The second launch, and the host operations up to the third -/

/-- The second launch leaves its region function of its five operands. -/
theorem W4_v25 : W4 m ρ c (Proc.devRef .tc main_v25)
    = Cert.Gcn.R1 (W3 m ρ c (Proc.devRef .tc main_v22)) (W3 m ρ c (Proc.devRef .tc main_v12)) (W3 m ρ c (Proc.devRef .tc main_v23))
        (W3 m ρ c (Proc.devRef .tc main_v24)) (W3 m ρ c (Proc.devRef .tc main_arg3)) :=
  (W4_arr m ρ c 5).trans (Cert.KernelIdeal.RegionValue.region1 (V3 m ρ) c)

theorem W5_arg6 : W5 m ρ c (Proc.devRef .tc main_arg6) = m ((c : Thread nD τ).loc main_arg6) := by
  show StableHlo.after hostOps2 (W4 m ρ c) (Proc.devRef .tc main_arg6) = _
  after_results
  exact (W4_of_ne m ρ c main_arg6 (by decide)).trans (W3_arg6 m ρ c)
theorem W5_v25 : W5 m ρ c (Proc.devRef .tc main_v25) = W4 m ρ c (Proc.devRef .tc main_v25) := by
  show StableHlo.after hostOps2 (W4 m ρ c) (Proc.devRef .tc main_v25) = _
  after_results
  try rfl
/-- The second layer's messages summed at their targets. -/
theorem W5_v35 : W5 m ρ c (Proc.devRef .tc main_v35)
    = aggOf (W4 m ρ c (Proc.devRef .tc main_v25)) (m ((c : Thread nD τ).loc main_arg5)) := by
  show StableHlo.after hostOps2 (W4 m ρ c) (Proc.devRef .tc main_v35) = _
  after_results
  rw [W4_of_ne m ρ c main_v3 (by decide), W4_of_ne m ρ c main_v1 (by decide)]
  show Host.scatterAdd (F := Ideal) _ _ (broadcastInDim _ _ _ (W3 m ρ c (Proc.devRef .tc main_v3))) (Host.gather _ _
      (broadcastInDim _ _ _ (select (cmpi .slt (W3 m ρ c (Proc.devRef .tc main_v1)) _) (addi (W3 m ρ c (Proc.devRef .tc main_v1)) _) (W3 m ρ c (Proc.devRef .tc main_v1))))) = _
  rw [W3_v3, W3_v1]
  rfl
theorem W5_v36 : W5 m ρ c (Proc.devRef .tc main_v36)
    = shapeCast S50000x1 (val_main_v11 (F := Ideal) (m ((c : Thread nD τ).loc main_arg5))) shapeCasts_S50000_S50000x1 := by
  show StableHlo.after hostOps2 (W4 m ρ c) (Proc.devRef .tc main_v36) = _
  after_results
  rw [W4_of_ne m ρ c main_v10 (by decide)]
  show (fun i => shapeCast S50000x1 (W3 m ρ c (Proc.devRef .tc main_v10)) shapeCasts_S50000_S50000x1 i) = _
  rw [W3_v10]
theorem W5_v37 : W5 m ρ c (Proc.devRef .tc main_v37)
    = shapeCast S1x128 (m ((c : Thread nD τ).loc main_arg4)) shapeCasts_S128_S1x128 := by
  show StableHlo.after hostOps2 (W4 m ρ c) (Proc.devRef .tc main_v37) = _
  after_results
  rw [W4_of_ne m ρ c main_arg4 (by decide)]
  show (fun i => shapeCast S1x128 (W3 m ρ c (Proc.devRef .tc main_arg4)) shapeCasts_S128_S1x128 i) = _
  rw [W3_arg4]

/-! ## The third launch and the pooling -/

/-- The third launch leaves its region function of its four operands. -/
theorem W6_v38 : W6 m ρ c (Proc.devRef .tc main_v38)
    = Cert.Gcn.R2 (W5 m ρ c (Proc.devRef .tc main_v35)) (W5 m ρ c (Proc.devRef .tc main_v25)) (W5 m ρ c (Proc.devRef .tc main_v36))
        (W5 m ρ c (Proc.devRef .tc main_v37)) :=
  (W6_arr m ρ c 4).trans (Cert.KernelIdeal.RegionValue.region2 (V5 m ρ) c)

/-- The result: the mean pooling of what the third launch leaves. -/
theorem W7_v50 : W7 m ρ c (Proc.devRef .tc main_v50)
    = refTail (F := Ideal) (W6 m ρ c (Proc.devRef .tc main_v38)) (m ((c : Thread nD τ).loc main_arg6)) := by
  show StableHlo.after hostOps3 (W6 m ρ c) (Proc.devRef .tc main_v50) = _
  after_results
  rw [W6_of_ne m ρ c main_arg6 (by decide), W5_arg6]
  rfl

/-! ## Composed -/

/-- THE KERNEL'S VALUE: the pooling of the second layer, each layer in the kernel's arrangement. -/
theorem kernel_value : W7 m ρ c (Proc.devRef .tc main_v50)
    = refTail (F := Ideal)
        (kerLayer (Cert.Gcn.mm (kerLayer (Cert.Gcn.mm (m ((c : Thread nD τ).loc main_arg0)) (m ((c : Thread nD τ).loc main_arg1)))
            (m ((c : Thread nD τ).loc main_arg2)) (m ((c : Thread nD τ).loc main_arg5)) shapeCasts_S50000_S50000x1 shapeCasts_S128_S1x128)
          (m ((c : Thread nD τ).loc main_arg3)))
          (m ((c : Thread nD τ).loc main_arg4)) (m ((c : Thread nD τ).loc main_arg5)) shapeCasts_S50000_S50000x1 shapeCasts_S128_S1x128)
        (m ((c : Thread nD τ).loc main_arg6)) := by
  rw [W7_v50, W6_v38, W5_v35, W5_v25, W5_v36, W5_v37, W4_v25, W3_v22, W3_v12, W3_v23, W3_v24, W3_arg3, W2_v12]
  rfl

end Cert.KernelIdeal.HostValue

end
-- ==== Proof.lean ====
/-
  Two-layer graph convolution with mean pooling: three tiled kernels (product with row scaling; the first layer's
  rectifier fused with the second product; the second layer's rectifier) among host gathers and scatters, against
  the plain reference.  At the ideal instance both programs compute, per layer and node `n`,
      leaky( Σ_{edges e → n} h[s e] · dinv[s e] · dinv[n]  +  h[n] · dinv[n]²  +  b ),     dinv = (in-degree + 1)^(-1/2),
  the kernel with `dinv[n]` factored out of the sum and the self term (it scales `h` by `dinv` once on the node
  side, before the edges gather it), the reference with the edge coefficient `dinv[s e] · dinv[t e]` on every
  message.  The two arrangements agree on the extended reals because `dinv[n]` is a nonnegative real, which
  distributes over any finite sum (LayerEq.lean, Algebra.lean); the matrix products, the rectifier's slope (one f32
  word on both sides), the degree computation, the index handling and the pooling are the same terms on both
  sides.  The equality needs nothing of the inputs: the precondition is not used.
-/
import proofs.«164821_j27066883899917_2_alg».proof.Defs
import proofs.«164821_j27066883899917_2_alg».proof.Proof.Gen.Kernel
import proofs.«164821_j27066883899917_2_alg».proof.Proof.Gen.KernelIdeal
import proofs.«164821_j27066883899917_2_alg».proof.Proof.Gen.ReferenceIdeal
import proofs.«164821_j27066883899917_2_alg».proof.Proof.Gen.Pre_finite_inputs
import proofs.«164821_j27066883899917_2_alg».proof.Proof.Gen.ReferenceIdeal.Run
import proofs.«164821_j27066883899917_2_alg».proof.Proof.Gen.ReferenceIdeal.Read
import proofs.«164821_j27066883899917_2_alg».proof.Proof.Patched.Kernel.Frame
import proofs.«164821_j27066883899917_2_alg».proof.Proof.Patched.KernelIdeal.Frame
import proofs.«164821_j27066883899917_2_alg».proof.Proof.KernelRun
import proofs.«164821_j27066883899917_2_alg».proof.Proof.KernelValue
import proofs.«164821_j27066883899917_2_alg».proof.Proof.LayerEq
import Idealize.ShloMosaic.Adequacy
import Idealize.ShloMosaic.Init

noncomputable section

open scoped BigOperators

/-! ## The reference's matrix products are `Cert.Gcn.mm` -/

namespace Cert.ReferenceIdeal.Layer

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-- The first product, entry by entry: the sum over the contracted axis. -/
theorem dot1_eq_mm (x0 : FVec Ideal S50000x128 .f32) (x1 : FVec Ideal S128x128 .f32) :
    val_main_v4 (F := Ideal) x0 x1 = Cert.Gcn.mm x0 x1 := by
  funext i
  rw [val_main_v4_apply]
  unfold Cert.Gcn.mm
  refine Finset.sum_congr rfl fun k _ => ?_
  have el : lidx_main_v4 i k = ix2 (i 0) k := funext fun a => match a with | ⟨0, _⟩ => rfl | ⟨1, _⟩ => rfl
  have er : ridx_main_v4 i k = ix2 k (i 1) := funext fun a => match a with | ⟨0, _⟩ => rfl | ⟨1, _⟩ => rfl
  rw [el, er]
  rfl

/-- The second product. -/
theorem dot2_eq_mm (x0 : FVec Ideal S50000x128 .f32) (x1 : FVec Ideal S128x128 .f32) (x2 : FVec Ideal S128 .f32)
    (x3 : FVec Ideal S128x128 .f32) (x5 : IVec S2x600000 32) :
    val_main_v53 (F := Ideal) x0 x1 x2 x3 x5 = Cert.Gcn.mm (val_main_v52 (F := Ideal) x0 x1 x2 x5) x3 := by
  funext i
  rw [val_main_v53_apply]
  unfold Cert.Gcn.mm
  refine Finset.sum_congr rfl fun k _ => ?_
  have el : lidx_main_v53 i k = ix2 (i 0) k := funext fun a => match a with | ⟨0, _⟩ => rfl | ⟨1, _⟩ => rfl
  have er : ridx_main_v53 i k = ix2 k (i 1) := funext fun a => match a with | ⟨0, _⟩ => rfl | ⟨1, _⟩ => rfl
  rw [el, er]
  rfl

/-- THE REFERENCE'S VALUE: the pooling of the second layer of the second product of the first layer of the first
    product, each layer in the reference's arrangement. -/
theorem ref_value (x0 : FVec Ideal S50000x128 .f32) (x1 : FVec Ideal S128x128 .f32) (x2 : FVec Ideal S128 .f32)
    (x3 : FVec Ideal S128x128 .f32) (x4 : FVec Ideal S128 .f32) (x5 : IVec S2x600000 32) (x6 : IVec S50000 32) :
    val_main_v113 (F := Ideal) x0 x1 x2 x3 x4 x5 x6
      = refTail (F := Ideal) (refLayer (F := Ideal) (Cert.Gcn.mm (refLayer (F := Ideal) (Cert.Gcn.mm x0 x1) x2 x5) x3) x4 x5) x6 := by
  rw [tail_eq, layer2_eq, dot2_eq_mm, layer1_eq, dot1_eq_mm]

end Cert.ReferenceIdeal.Layer

/-! ## The claims -/

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ
theorem frame_ki : @Cert.frame_KernelIdeal Cert.KernelIdeal.Gen.facts Cert.Pre_finite_inputs.Gen.facts :=
  fun m ρ _ => Cert.KernelIdeal.Gen.frame m ρ
theorem frame_ri : @Cert.frame_ReferenceIdeal Cert.ReferenceIdeal.Gen.facts Cert.Pre_finite_inputs.Gen.facts :=
  fun m ρ _ =>
    (θ_run Cert.ReferenceIdeal.defs _ _).mono (fun _ h c => (h c).2) (Cert.ReferenceIdeal.Value.run (F := Ideal) m ρ)

/-- Both programs end with the same result array: the kernel's is the pooling of its two layers in its own
    arrangement (KernelValue.lean), each of which is the reference's layer (the layer identity), and the reference's
    result is the pooling of its two layers. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W7 m ρ c (Proc.devRef .tc Cert.KernelIdeal.main_v50),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W7 m ρ c (Proc.devRef .tc Cert.KernelIdeal.main_v50)
  rw [Cert.KernelIdeal.HostValue.kernel_value m ρ c, Cert.ReferenceIdeal.Layer.layer_eq, Cert.ReferenceIdeal.Layer.layer_eq,
    Cert.ReferenceIdeal.Read.val_main_v113_eq, Cert.ReferenceIdeal.Layer.ref_value,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
